-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S64 .f32) (main_arg17 : FVec F S64x16 .f32) (main_arg18 : FVec F S16 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x16 .f32 := Host.absf main_arg17
  let main_cst_28 : FVec F S_ .f32 := constant S_ .f32 0x7F800000#32
  let main_v75 : FVec F S64x16 .f32 := broadcastInDim S64x16 ![] bcast_S_S64x16 main_cst_28
  let main_v76 : IVec S64x16 1 := cmpf .olt main_v74 main_v75
  let main_c_29 : IVec S_ 1 := constantI S_ 1 1#1
  let main_v77 : IVec S_ 1 := (fun x v => Host.reduce IntOp.andi x v reducesTo_S64x16_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg13 : FVec F S64x64 .f32) (main_arg14 : FVec F S64 .f32) (main_arg15 : FVec F S64x64 .f32) (main_arg16 : FVec F S64 .f32) (main_arg17 : FVec F S64x16 .f32) (main_arg18 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x16 .f32) (main_arg18 : FVec F S16 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x16 .f32) (main_arg18 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x64 .f32) (main_arg1 : IVec S2x1250000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x16 .f32) (main_arg18 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1250000 : Shape := ⟨2, ![1, 1250000]⟩
abbrev S1250000 : Shape := ⟨1, ![1250000]⟩
abbrev S1x64 : Shape := ⟨2, ![1, 64]⟩
abbrev S5000x64 : Shape := ⟨2, ![5000, 64]⟩
abbrev S_ : Shape := ⟨0, ![]⟩
abbrev S1250000x1 : Shape := ⟨2, ![1250000, 1]⟩
abbrev S1250000x64 : Shape := ⟨2, ![1250000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 93
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x16, .f32⟩
  | .hbm, ⟨18, _⟩ => ⟨S16, .f32⟩
  | .hbm, ⟨19, _⟩ => ⟨S1x1250000, .i32⟩
  | .hbm, ⟨20, _⟩ => ⟨S1250000, .i32⟩
  | .hbm, ⟨21, _⟩ => ⟨S1x1250000, .i32⟩
  | .hbm, ⟨22, _⟩ => ⟨S1250000, .i32⟩
  | .hbm, ⟨23, _⟩ => ⟨S1x64, .f32⟩
  | .hbm, ⟨24, _⟩ => ⟨S100000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .f32⟩
  | .hbm, ⟨35, _⟩ => ⟨S100000x64, .f32⟩
  | .hbm, ⟨36, _⟩ => ⟨S1250000x1, .i32⟩
  | .hbm, ⟨37, _⟩ => ⟨S100000x64, .f32⟩
  | .hbm, ⟨38, _⟩ => ⟨S1x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1250000, .i32⟩
  | .hbm, ⟨43, _⟩ => ⟨S1250000, .i1⟩
  | .hbm, ⟨44, _⟩ => ⟨S_, .i32⟩
  | .hbm, ⟨45, _⟩ => ⟨S1250000, .i32⟩
  | .hbm, ⟨46, _⟩ => ⟨S1250000, .i32⟩
  | .hbm, ⟨47, _⟩ => ⟨S1250000, .i32⟩
  | .hbm, ⟨48, _⟩ => ⟨S1250000x1, .i32⟩
  | .hbm, ⟨49, _⟩ => ⟨S1250000x64, .f32⟩
  | .hbm, ⟨50, _⟩ => ⟨S_, .f32⟩
  | .hbm, ⟨51, _⟩ => ⟨S100000x64, .f32⟩
  | .hbm, ⟨52, _⟩ => ⟨S1250000x1, .i32⟩
  | .hbm, ⟨53, _⟩ => ⟨S100000x64, .f32⟩
  | .hbm, ⟨54, _⟩ => ⟨S1x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1250000, .i32⟩
  | .hbm, ⟨59, _⟩ => ⟨S1250000, .i1⟩
  | .hbm, ⟨60, _⟩ => ⟨S_, .i32⟩
  | .hbm, ⟨61, _⟩ => ⟨S1250000, .i32⟩
  | .hbm, ⟨62, _⟩ => ⟨S1250000, .i32⟩
  | .hbm, ⟨63, _⟩ => ⟨S1250000, .i32⟩
  | .hbm, ⟨64, _⟩ => ⟨S1250000x1, .i32⟩
  | .hbm, ⟨65, _⟩ => ⟨S1250000x64, .f32⟩
  | .hbm, ⟨66, _⟩ => ⟨S_, .f32⟩
  | .hbm, ⟨67, _⟩ => ⟨S100000x64, .f32⟩
  | .hbm, ⟨68, _⟩ => ⟨S1250000x1, .i32⟩
  | .hbm, ⟨69, _⟩ => ⟨S100000x64, .f32⟩
  | .hbm, ⟨70, _⟩ => ⟨S1x64, .f32⟩
  | .hbm, ⟨71, _⟩ => ⟨S1x64, .f32⟩
  | .hbm, ⟨72, _⟩ => ⟨S100000x64, .f32⟩
  | .hbm, ⟨73, _⟩ => ⟨S_, .f32⟩
  | .hbm, ⟨74, _⟩ => ⟨S512x64, .f32⟩
  | .hbm, ⟨75, _⟩ => ⟨S100000x1, .i32⟩
  | .hbm, ⟨76, _⟩ => ⟨S512x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S512, .f32⟩
  | .hbm, ⟨81, _⟩ => ⟨S100000x1, .i32⟩
  | .hbm, ⟨82, _⟩ => ⟨S512, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S512x1, .f32⟩
  | .hbm, ⟨87, _⟩ => ⟨S512x64, .f32⟩
  | .hbm, ⟨88, _⟩ => ⟨S512x64, .f32⟩
  | .hbm, ⟨89, _⟩ => ⟨S512x16, .f32⟩
  | .hbm, ⟨90, _⟩ => ⟨S1x16, .f32⟩
  | .hbm, ⟨91, _⟩ => ⟨S512x16, .f32⟩
  | .hbm, ⟨92, _⟩ => ⟨S512x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_1 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S5000x64_S5000x64 : S5000x64.ShapeCasts S5000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x16_S512x16_1_0_0_1_n_n_wf : DotDims.WF S512x64 S64x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v31) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1250000 : Shape := ⟨2, ![1, 1250000]⟩
abbrev S1250000 : Shape := ⟨1, ![1250000]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x16, .f32⟩
  | 18 => ⟨S16, .f32⟩
  | 19 => ⟨S1x1250000, .i32⟩
  | 20 => ⟨S1250000, .i32⟩
  | 21 => ⟨S1x1250000, .i32⟩
  | 22 => ⟨S1250000, .i32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1250000x64, .f32⟩
  | 39 => ⟨S_, .f32⟩
  | 40 => ⟨S100000x64, .f32⟩
  | 41 => ⟨S1250000x1, .i32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .i32⟩
  | 59 => ⟨S1250000, .i32⟩
  | 60 => ⟨S1250000, .i1⟩
  | 61 => ⟨S_, .i32⟩
  | 62 => ⟨S1250000, .i32⟩
  | 63 => ⟨S1250000, .i32⟩
  | 64 => ⟨S1250000, .i32⟩
  | 65 => ⟨S1250000x1, .i32⟩
  | 66 => ⟨S1250000x64, .f32⟩
  | 67 => ⟨S_, .f32⟩
  | 68 => ⟨S100000x64, .f32⟩
  | 69 => ⟨S1250000x1, .i32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S_, .i32⟩
  | 87 => ⟨S1250000, .i32⟩
  | 88 => ⟨S1250000, .i1⟩
  | 89 => ⟨S_, .i32⟩
  | 90 => ⟨S1250000, .i32⟩
  | 91 => ⟨S1250000, .i32⟩
  | 92 => ⟨S1250000, .i32⟩
  | 93 => ⟨S1250000x1, .i32⟩
  | 94 => ⟨S1250000x64, .f32⟩
  | 95 => ⟨S_, .f32⟩
  | 96 => ⟨S100000x64, .f32⟩
  | 97 => ⟨S1250000x1, .i32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S512x64, .f32⟩
  | 116 => ⟨S100000x1, .i32⟩
  | 117 => ⟨S512x64, .f32⟩
  | 118 => ⟨S_, .f32⟩
  | 119 => ⟨S100000, .f32⟩
  | 120 => ⟨S_, .f32⟩
  | 121 => ⟨S512, .f32⟩
  | 122 => ⟨S100000x1, .i32⟩
  | 123 => ⟨S512, .f32⟩
  | 124 => ⟨S_, .f32⟩
  | 125 => ⟨S512, .f32⟩
  | 126 => ⟨S512, .f32⟩
  | 127 => ⟨S512x1, .f32⟩
  | _ => ⟨S100000x64, .f32⟩

abbrev hbmTy0_1 (i : Nat) : BufTy := match i % 128 with
  | 0 => ⟨S512x64, .f32⟩
  | 1 => ⟨S512x64, .f32⟩
  | 2 => ⟨S512x16, .f32⟩
  | 3 => ⟨S1x16, .f32⟩
  | 4 => ⟨S512x16, .f32⟩
  | 5 => ⟨S512x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call2_cst : Ref sig .tc := ⟨.hbm, 55, rfl⟩
abbrev main_call2_v0 : Ref sig .tc := ⟨.hbm, 56, rfl⟩
abbrev main_v29 : Ref sig .tc := ⟨.hbm, 57, rfl⟩
abbrev main_c_1 : Ref sig .tc := ⟨.hbm, 58, rfl⟩
abbrev main_v30 : Ref sig .tc := ⟨.hbm, 59, rfl⟩
abbrev main_v31 : Ref sig .tc := ⟨.hbm, 60, rfl⟩
abbrev main_c_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call4_cst : Ref sig .tc := ⟨.hbm, 83, rfl⟩
abbrev main_call4_v0 : Ref sig .tc := ⟨.hbm, 84, rfl⟩
abbrev main_v50 : Ref sig .tc := ⟨.hbm, 85, rfl⟩
abbrev main_c_4 : Ref sig .tc := ⟨.hbm, 86, rfl⟩
abbrev main_v51 : Ref sig .tc := ⟨.hbm, 87, rfl⟩
abbrev main_v52 : Ref sig .tc := ⟨.hbm, 88, rfl⟩
abbrev main_c_5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_6 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call5_cst : Ref sig .tc := ⟨.hbm, 104, rfl⟩
abbrev main_call5_v0 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_call6_cst : Ref sig .tc := ⟨.hbm, 111, rfl⟩
abbrev main_call6_v0 : Ref sig .tc := ⟨.hbm, 112, rfl⟩
abbrev main_v71 : Ref sig .tc := ⟨.hbm, 113, rfl⟩
abbrev main_cst_7 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_8 : Ref sig .tc := ⟨.hbm, 118, rfl⟩
abbrev main_v75 : Ref sig .tc := ⟨.hbm, 119, rfl⟩
abbrev main_cst_9 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_10 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x16_S512x16_1_0_0_1_n_n_wf : DotDims.WF S512x64 S64x16 S512x16 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

class Facts : Prop extends Facts₀ where

variable [Facts]
-- ==== Proof.KernelRun.lean ====
/-
  The kernel program's run with every buffer named.

  The program is five stretches of host operations around four kernel regions. Its run ends with every buffer
  that outlives a region holding the contents that the fold of the stretches and the regions' write-backs over the
  launch memory gives it: a host operation's result where one wrote it, a region's output array where its blocks
  were written back, the launch contents elsewhere. The frame claim keeps of this only the argument arrays; the
  value claim needs the result buffer too, so the run is stated here once for all buffers.
-/
import proofs.«118939_j59055800320835_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and in its final state every
    buffer that outlives the regions holds, on every core, the contents the fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.RunAll

end
-- ==== Proof.KernelKeep.lean ====
/-
  Which buffers each segment of the kernel program leaves alone.

  A stretch of host operations writes only its own result buffers, and a region writes only its windows' arrays;
  every other buffer holds after the segment what it held before. The argument arrays are written by nothing, so
  at every boundary they hold their launch contents.
-/
import proofs.«118939_j59055800320835_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffers host stretch 0 writes. -/
abbrev wr0 : List (Ref sig .tc) := [main_v0, main_v1, main_v2, main_v3, main_v4]
theorem wr0_sub : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers host stretch 1 writes. -/
abbrev wr1 : List (Ref sig .tc) := [main_c, main_v6, main_v7, main_c_0, main_v8, main_v9, main_v10, main_v11, main_v12, main_cst, main_v13, main_v14, main_v15, main_v16, main_v17]
theorem wr1_sub : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers host stretch 2 writes. -/
abbrev wr2 : List (Ref sig .tc) := [main_c_1, main_v19, main_v20, main_c_2, main_v21, main_v22, main_v23, main_v24, main_v25, main_cst_3, main_v26, main_v27, main_v28, main_v29, main_v30]
theorem wr2_sub : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers host stretch 3 writes. -/
abbrev wr3 : List (Ref sig .tc) := [main_c_4, main_v32, main_v33, main_c_5, main_v34, main_v35, main_v36, main_v37, main_v38, main_cst_6, main_v39, main_v40, main_v41, main_v42, main_v43]
theorem wr3_sub : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers host stretch 4 writes. -/
abbrev wr4 : List (Ref sig .tc) := [main_cst_7, main_v45, main_v46, main_v47, main_cst_8, main_v48, main_cst_9, main_v49, main_v50, main_v51, main_cst_10, main_v52, main_v53, main_v54, main_v55, main_v56, main_v57, main_v58, main_v59, main_v60]
theorem wr4_sub : (hostOps4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-! ## One segment at a time -/

theorem keep1 (r : Ref sig .tc) (h : r ∉ wr0) : W1 m ρ c (Proc.devRef .tc r) = W0 m ρ c (Proc.devRef .tc r) :=
  StableHlo.after_of_writes_sub hostOps0 _ wr0_sub h
theorem keep2 (r : Ref sig .tc) (h : ∀ w, Pipeline.arrRef spec0 w ≠ r) : W2 m ρ c (Proc.devRef .tc r) = W1 m ρ c (Proc.devRef .tc r) :=
  W2_of_ne m ρ c r h
theorem keep3 (r : Ref sig .tc) (h : r ∉ wr1) : W3 m ρ c (Proc.devRef .tc r) = W2 m ρ c (Proc.devRef .tc r) :=
  StableHlo.after_of_writes_sub hostOps1 _ wr1_sub h
theorem keep4 (r : Ref sig .tc) (h : ∀ w, Pipeline.arrRef spec1 w ≠ r) : W4 m ρ c (Proc.devRef .tc r) = W3 m ρ c (Proc.devRef .tc r) :=
  W4_of_ne m ρ c r h
theorem keep5 (r : Ref sig .tc) (h : r ∉ wr2) : W5 m ρ c (Proc.devRef .tc r) = W4 m ρ c (Proc.devRef .tc r) :=
  StableHlo.after_of_writes_sub hostOps2 _ wr2_sub h
theorem keep6 (r : Ref sig .tc) (h : ∀ w, Pipeline.arrRef spec2 w ≠ r) : W6 m ρ c (Proc.devRef .tc r) = W5 m ρ c (Proc.devRef .tc r) :=
  W6_of_ne m ρ c r h
theorem keep7 (r : Ref sig .tc) (h : r ∉ wr3) : W7 m ρ c (Proc.devRef .tc r) = W6 m ρ c (Proc.devRef .tc r) :=
  StableHlo.after_of_writes_sub hostOps3 _ wr3_sub h
theorem keep8 (r : Ref sig .tc) (h : ∀ w, Pipeline.arrRef spec3 w ≠ r) : W8 m ρ c (Proc.devRef .tc r) = W7 m ρ c (Proc.devRef .tc r) :=
  W8_of_ne m ρ c r h

/-! ## From the launch to a boundary -/

theorem to1 (r : Ref sig .tc) (h1 : r ∉ wr0) : W1 m ρ c (Proc.devRef .tc r) = m ((c : Thread nD τ).loc r) :=
  keep1 m ρ c r h1
theorem to2 (r : Ref sig .tc) (h1 : r ∉ wr0) (h2 : ∀ w, Pipeline.arrRef spec0 w ≠ r) :
    W2 m ρ c (Proc.devRef .tc r) = m ((c : Thread nD τ).loc r) :=
  (keep2 m ρ c r h2).trans (to1 m ρ c r h1)
theorem to4 (r : Ref sig .tc) (h1 : r ∉ wr0) (h2 : ∀ w, Pipeline.arrRef spec0 w ≠ r) (h3 : r ∉ wr1)
    (h4 : ∀ w, Pipeline.arrRef spec1 w ≠ r) : W4 m ρ c (Proc.devRef .tc r) = m ((c : Thread nD τ).loc r) :=
  (keep4 m ρ c r h4).trans ((keep3 m ρ c r h3).trans (to2 m ρ c r h1 h2))
theorem to6 (r : Ref sig .tc) (h1 : r ∉ wr0) (h2 : ∀ w, Pipeline.arrRef spec0 w ≠ r) (h3 : r ∉ wr1)
    (h4 : ∀ w, Pipeline.arrRef spec1 w ≠ r) (h5 : r ∉ wr2) (h6 : ∀ w, Pipeline.arrRef spec2 w ≠ r) :
    W6 m ρ c (Proc.devRef .tc r) = m ((c : Thread nD τ).loc r) :=
  (keep6 m ρ c r h6).trans ((keep5 m ρ c r h5).trans (to4 m ρ c r h1 h2 h3 h4))
theorem to8 (r : Ref sig .tc) (h1 : r ∉ wr0) (h2 : ∀ w, Pipeline.arrRef spec0 w ≠ r) (h3 : r ∉ wr1)
    (h4 : ∀ w, Pipeline.arrRef spec1 w ≠ r) (h5 : r ∉ wr2) (h6 : ∀ w, Pipeline.arrRef spec2 w ≠ r) (h7 : r ∉ wr3)
    (h8 : ∀ w, Pipeline.arrRef spec3 w ≠ r) : W8 m ρ c (Proc.devRef .tc r) = m ((c : Thread nD τ).loc r) :=
  (keep8 m ρ c r h8).trans ((keep7 m ρ c r h7).trans (to6 m ρ c r h1 h2 h3 h4 h5 h6))

/-- From region 0's entry to a later boundary, for the two edge-endpoint buffers that host stretch 0 computes. -/
theorem from1_to2 (r : Ref sig .tc) (h2 : ∀ w, Pipeline.arrRef spec0 w ≠ r) :
    W2 m ρ c (Proc.devRef .tc r) = W1 m ρ c (Proc.devRef .tc r) := keep2 m ρ c r h2
theorem from1_to4 (r : Ref sig .tc) (h2 : ∀ w, Pipeline.arrRef spec0 w ≠ r) (h3 : r ∉ wr1)
    (h4 : ∀ w, Pipeline.arrRef spec1 w ≠ r) : W4 m ρ c (Proc.devRef .tc r) = W1 m ρ c (Proc.devRef .tc r) :=
  (keep4 m ρ c r h4).trans ((keep3 m ρ c r h3).trans (keep2 m ρ c r h2))
theorem from1_to6 (r : Ref sig .tc) (h2 : ∀ w, Pipeline.arrRef spec0 w ≠ r) (h3 : r ∉ wr1)
    (h4 : ∀ w, Pipeline.arrRef spec1 w ≠ r) (h5 : r ∉ wr2) (h6 : ∀ w, Pipeline.arrRef spec2 w ≠ r) :
    W6 m ρ c (Proc.devRef .tc r) = W1 m ρ c (Proc.devRef .tc r) :=
  (keep6 m ρ c r h6).trans ((keep5 m ρ c r h5).trans (from1_to4 m ρ c r h2 h3 h4))

end Cert.KernelIdeal.Keep

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Spec.lean ====
/-
  The dense layers of the network, as functions of whole arrays over the extended reals.

  A node-feature array has one row per node and 64 columns. A dense layer followed by the rectifier sends the
  array h to max(h W + b, 0): entry (r, q) is the larger of zero and the sum over k of h (r, k) W (k, q), plus b q.
  One message-passing layer adds the aggregated neighbour features to h and applies two such layers in a row.
  Everything here is stated for any number of rows, so that the same function describes a block of rows and the
  whole array: a row of the result depends on the same row of the inputs only.
-/
import Idealize.ShloMosaic.PureOps.Ideal.Laws
import Idealize.ShloMosaic.Lib.ValueIdx

noncomputable section

namespace Cert.GinSpec

open Idealize.ShloMosaic Idealize.ShloMosaic.ValueIdx

/-- The zero the rectifier compares with (the float pattern of +0, which both programs spell). -/
def zero : EReal := Ideal.ofBits .f32 0x00000000#32

/-- Entry (p, q) of max(h W + b, 0). -/
def denseAt {N : ℕ} (h : (⟨2, ![N, 64]⟩ : Shape).Idx → EReal) (W : (⟨2, ![64, 64]⟩ : Shape).Idx → EReal)
    (b : Fin 64 → EReal) (p : Fin N) (q : Fin 64) : EReal :=
  max (∑ k : Fin 64, h (ix2 p k) * W (ix2 k q) + b q) zero

/-- The array max(h W + b, 0). -/
def denseRelu {N : ℕ} (h : (⟨2, ![N, 64]⟩ : Shape).Idx → EReal) (W : (⟨2, ![64, 64]⟩ : Shape).Idx → EReal)
    (b : Fin 64 → EReal) : (⟨2, ![N, 64]⟩ : Shape).Idx → EReal :=
  fun i => denseAt h W b (i 0) (i 1)

theorem denseRelu_ix2 {N : ℕ} (h : (⟨2, ![N, 64]⟩ : Shape).Idx → EReal) (W : (⟨2, ![64, 64]⟩ : Shape).Idx → EReal)
    (b : Fin 64 → EReal) (p : Fin N) (q : Fin 64) : denseRelu h W b (ix2 p q) = denseAt h W b p q := rfl

/-- One message-passing layer: the aggregated features are added to the node's own, then two dense layers. -/
def ginLayer {N : ℕ} (h a : (⟨2, ![N, 64]⟩ : Shape).Idx → EReal)
    (Wa : (⟨2, ![64, 64]⟩ : Shape).Idx → EReal) (ba : Fin 64 → EReal)
    (Wb : (⟨2, ![64, 64]⟩ : Shape).Idx → EReal) (bb : Fin 64 → EReal) : (⟨2, ![N, 64]⟩ : Shape).Idx → EReal :=
  denseRelu (denseRelu (fun i => h i + a i) Wa ba) Wb bb

/-- A dense layer acts row by row: if the rows of h' are rows of h (row p of h' is row e p of h) and the weights
    and the bias agree, the same holds of the results. -/
theorem denseAt_rows {N N' : ℕ} (h : (⟨2, ![N, 64]⟩ : Shape).Idx → EReal) (h' : (⟨2, ![N', 64]⟩ : Shape).Idx → EReal)
    (W W' : (⟨2, ![64, 64]⟩ : Shape).Idx → EReal) (b b' : Fin 64 → EReal) (e : Fin N' → Fin N)
    (hrow : ∀ p k, h' (ix2 p k) = h (ix2 (e p) k)) (hW : ∀ y, W' y = W y) (hb : ∀ q, b' q = b q)
    (p : Fin N') (q : Fin 64) :
    denseAt h' W' b' p q = denseAt h W b (e p) q := by
  unfold denseAt
  simp only [hrow, hW, hb]

/-- The same for a whole message-passing layer. -/
theorem ginLayer_rows {N N' : ℕ} (h a : (⟨2, ![N, 64]⟩ : Shape).Idx → EReal) (h' a' : (⟨2, ![N', 64]⟩ : Shape).Idx → EReal)
    (Wa Wa' : (⟨2, ![64, 64]⟩ : Shape).Idx → EReal) (ba ba' : Fin 64 → EReal)
    (Wb Wb' : (⟨2, ![64, 64]⟩ : Shape).Idx → EReal) (bb bb' : Fin 64 → EReal) (e : Fin N' → Fin N)
    (hh : ∀ p k, h' (ix2 p k) = h (ix2 (e p) k)) (ha : ∀ p k, a' (ix2 p k) = a (ix2 (e p) k))
    (hWa : ∀ y, Wa' y = Wa y) (hba : ∀ q, ba' q = ba q) (hWb : ∀ y, Wb' y = Wb y) (hbb : ∀ q, bb' q = bb q)
    (p : Fin N') (q : Fin 64) :
    ginLayer h' a' Wa' ba' Wb' bb' (ix2 p q) = ginLayer h a Wa ba Wb bb (ix2 (e p) q) := by
  unfold ginLayer
  rw [denseRelu_ix2, denseRelu_ix2]
  refine denseAt_rows _ _ Wb Wb' bb bb' e (fun p k => ?_) hWb hbb p q
  rw [denseRelu_ix2, denseRelu_ix2]
  refine denseAt_rows _ _ Wa Wa' ba ba' e (fun p k => ?_) hWa hba p k
  show h' (ix2 p k) + a' (ix2 p k) = h (ix2 (e p) k) + a (ix2 (e p) k)
  rw [hh, ha]

end Cert.GinSpec

end
-- ==== Proof.KernelBody.lean ====
/-
  What each kernel body computes from the blocks it loads, at the extended reals.

  The embedding body multiplies a block of 5000 rows by the 64 by 64 weight matrix, adds the bias row to every
  row and takes the larger of the result and zero. The message-passing body first adds the two loaded blocks (the
  node features and the aggregated neighbour features) and then applies two such layers. A change of float format
  is the identity on the extended reals, so the narrowing of the operands before each product disappears, and the
  product into a zero accumulator is the plain sum over the contracted axis.
-/
import proofs.«118939_j59055800320835_1_alg».proof.Proof.Gen.KernelIdeal.Skeleton
import proofs.«118939_j59055800320835_1_alg».proof.Proof.LibMatmul
import proofs.«118939_j59055800320835_1_alg».proof.Proof.Spec
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.GinSpec

/-! ## The block product's operand indices: (row, contraction) on the left, (contraction, column) on the right -/

theorem lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, q) of the block product into the zero accumulator: the sum over k of l (p, k) r (k, q). -/
theorem product_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.LibMatmul.matmul_zero_ix2 dot_S5000x64_S64x64_S5000x64_1_0_0_1_n_n rfl rfl lhs0 lhs1 rhs0 rhs1 none l r p q

/-- The bias row spread over the block's rows: entry (p, q) is the row's entry q. -/
theorem biasRow_apply (x : Vec Ideal S1x64 .f32) (p : Fin 5000) (q : Fin 64) :
    broadcastTo S5000x64 (shapeCast S1x64 x shapeCasts_S1x64_S1x64) broadcasts_S1x64_S5000x64 (ix2 p q) = x (ix2 0 q) := by
  rw [shapeCast_self]
  exact broadcastTo_apply x broadcasts_S1x64_S5000x64 (ix2 p q) (ix2 0 q) (fun a => by
    match a with
    | ⟨0, _⟩ => rfl
    | ⟨1, _⟩ => rfl)

/-- The embedding body's stored value: max(x W + b, 0) of the loaded blocks. -/
theorem embed_eq (x0 : Vec Ideal S5000x64 .f32) (x1 : Vec Ideal S64x64 .f32) (x2 : Vec Ideal S1x64 .f32) :
    k0_pay1 (F := Ideal) x0 x1 x2 = denseRelu x0 x1 (fun q => x2 (ix2 0 q)) := by
  funext j
  obtain ⟨p, q, rfl⟩ : ∃ (p : Fin 5000) (q : Fin 64), j = ix2 p q := ⟨j 0, j 1, eq_ix2 j⟩
  rw [denseRelu_ix2]
  unfold k0_pay1 denseAt
  rw [maximumf_apply, addf_apply, broadcast_apply, product_apply, biasRow_apply]
  rfl

/-- The message-passing body is the embedding body applied twice, the first time to the sum of the two loaded
    blocks: the same operations in the same order. -/
theorem gin_unfold (h a : Vec Ideal S5000x64 .f32) (wa : Vec Ideal S64x64 .f32) (ba : Vec Ideal S1x64 .f32)
    (wb : Vec Ideal S64x64 .f32) (bb : Vec Ideal S1x64 .f32) :
    k1_pay1 (F := Ideal) h a wa ba wb bb
      = k0_pay1 (F := Ideal) (k0_pay1 (F := Ideal)
          (addf (shapeCast S5000x64 h shapeCasts_S5000x64_S5000x64 : FVec Ideal S5000x64 .f32)
            (shapeCast S5000x64 a shapeCasts_S5000x64_S5000x64 : FVec Ideal S5000x64 .f32) : FVec Ideal S5000x64 .f32) wa ba) wb bb := rfl

/-- The message-passing body's stored value: two dense layers of the sum of the loaded blocks. -/
theorem gin_eq (h a : Vec Ideal S5000x64 .f32) (wa : Vec Ideal S64x64 .f32) (ba : Vec Ideal S1x64 .f32)
    (wb : Vec Ideal S64x64 .f32) (bb : Vec Ideal S1x64 .f32) :
    k1_pay1 (F := Ideal) h a wa ba wb bb
      = ginLayer h a wa (fun q => ba (ix2 0 q)) wb (fun q => bb (ix2 0 q)) := by
  rw [gin_unfold, embed_eq, embed_eq, shapeCast_self, shapeCast_self]
  rfl

/-- The three message-passing regions run the same body. -/
theorem gin2_eq (h a : Vec Ideal S5000x64 .f32) (wa : Vec Ideal S64x64 .f32) (ba : Vec Ideal S1x64 .f32)
    (wb : Vec Ideal S64x64 .f32) (bb : Vec Ideal S1x64 .f32) :
    k2_pay1 (F := Ideal) h a wa ba wb bb
      = ginLayer h a wa (fun q => ba (ix2 0 q)) wb (fun q => bb (ix2 0 q)) :=
  (rfl : k2_pay1 (F := Ideal) h a wa ba wb bb = k1_pay1 (F := Ideal) h a wa ba wb bb).trans (gin_eq h a wa ba wb bb)

theorem gin3_eq (h a : Vec Ideal S5000x64 .f32) (wa : Vec Ideal S64x64 .f32) (ba : Vec Ideal S1x64 .f32)
    (wb : Vec Ideal S64x64 .f32) (bb : Vec Ideal S1x64 .f32) :
    k3_pay1 (F := Ideal) h a wa ba wb bb
      = ginLayer h a wa (fun q => ba (ix2 0 q)) wb (fun q => bb (ix2 0 q)) :=
  (rfl : k3_pay1 (F := Ideal) h a wa ba wb bb = k1_pay1 (F := Ideal) h a wa ba wb bb).trans (gin_eq h a wa ba wb bb)

end Cert.KernelIdeal.Body

end
-- ==== Proof.Region0.lean ====
/-
  The embedding region: what its output array holds when the region is left.

  The region walks 20 grid points; point t stages rows 5000 t to 5000 t + 4999 of the node features, the whole
  weight matrix and the whole bias row, and writes back rows 5000 t to 5000 t + 4999 of the output. A dense layer
  acts row by row, so the block point t writes back is the same rows of the dense layer of the whole arrays, and
  the 20 blocks tile the 100000 rows: the output array ends as max(x W + b, 0) of the arrays the region found.
  Stated for any contents V the region may be entered with.
-/
import proofs.«118939_j59055800320835_1_alg».proof.Proof.Gen.KernelIdeal.Frame
import proofs.«118939_j59055800320835_1_alg».proof.Proof.KernelBody
import Idealize.ShloMosaic.Lib.Pipeline.Value

set_option maxRecDepth 16384

noncomputable section

namespace Cert.KernelIdeal.Region0

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the node features and the output at block row t, the weights and
    the bias row at their only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- The dense layer of the arrays the region finds. -/
def G (c : Dev nD) : S100000x64.Idx → EReal :=
  denseRelu (V c main_arg0 : S100000x64.Idx → EReal) (V c main_arg3 : S64x64.Idx → EReal)
    (fun q => (V c main_v4 : S1x64.Idx → EReal) (ix2 0 q))

/-- What point t writes back is rows 5000 t … of the dense layer of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨e0, e1, e2, e3, e4, e5, e6, e7, ht⟩ := idx_facts t
  funext j
  refine (congrFun (Body.embed_eq (iblk0 V c 0 t) (iblk0 V c 1 t) (iblk0 V c 2 t)) j).trans ?_
  obtain ⟨p, q, rfl⟩ : ∃ (p : Fin 5000) (q : Fin 64), j = ix2 p q := ⟨j 0, j 1, eq_ix2 j⟩
  have hp : p.val < 5000 := p.isLt
  have hq : q.val < 64 := q.isLt
  let e : Fin 5000 → Fin 100000 := fun p' => ⟨t.val * 5000 + p'.val, by have := p'.isLt; omega⟩
  have hemb : ((cfg0.win 3).blk t).view.emb (ix2 p q) = ix2 (e p) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show denseAt (iblk0 V c 0 t) (iblk0 V c 1 t) (fun q => iblk0 V c 2 t (ix2 0 q)) p q
    = G V c (((cfg0.win 3).blk t).view.emb (ix2 p q))
  rw [hemb]
  show _ = denseAt (V c main_arg0 : S100000x64.Idx → EReal) (V c main_arg3 : S64x64.Idx → EReal)
    (fun q => (V c main_v4 : S1x64.Idx → EReal) (ix2 0 q)) (e p) q
  refine denseAt_rows _ _ _ _ _ _ e (fun p' k => ?_) (fun y => ?_) (fun q' => ?_) p q
  · show V c main_arg0 (((cfg0.win 0).blk t).view.emb (ix2 p' k)) = V c main_arg0 (ix2 (e p') k)
    refine congrArg _ (funext fun a => Fin.ext ?_)
    match a with
    | ⟨0, _⟩ => show win0_0.index t (0 : Fin 2) * 5000 + 1 * p'.val = t.val * 5000 + p'.val; omega
    | ⟨1, _⟩ => show win0_0.index t (1 : Fin 2) * 64 + 1 * k.val = k.val; omega
  · show V c main_arg3 (((cfg0.win 1).blk t).view.emb y) = V c main_arg3 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · show V c main_v4 (((cfg0.win 2).blk t).view.emb (ix2 0 q')) = V c main_v4 (ix2 0 q')
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q'.val = q'.val; omega

/-- An index of the output array is in point t's block iff its row is among the block's rows. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- Every block row is some point's. -/
theorem idx_onto : ∀ r : Fin 20, ∃ t : Fin cfg0.N, win0_3.index t = ![r.val, 0] :=
  (by decide +kernel : ∀ r : Fin 20, ∃ t : Fin grid0.N, win0_3.index t = ![r.val, 0])

/-- The 20 blocks tile the array: row r is in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY when the region is left: the dense layer of the arrays it found. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  Message-passing region 1: what its output array holds when the region is left.

  The region walks 20 grid points; point t stages rows 5000 t to 5000 t + 4999 of the node features and of the
  aggregated neighbour features, the two whole weight matrices and the two whole bias rows, and writes back rows
  5000 t to 5000 t + 4999 of the output. The layer acts row by row, so the block point t writes back is the same
  rows of the layer of the whole arrays, and the 20 blocks tile the 100000 rows: the output array ends as the
  message-passing layer of the arrays the region found. Stated for any contents V the region may be entered with.
-/
import proofs.«118939_j59055800320835_1_alg».proof.Proof.Gen.KernelIdeal.Frame
import proofs.«118939_j59055800320835_1_alg».proof.Proof.KernelBody
import Idealize.ShloMosaic.Lib.Pipeline.Value

set_option maxRecDepth 16384

noncomputable section

namespace Cert.KernelIdeal.Region1

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two feature arrays and the output at block row t, the weights
    and the bias rows at their only block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 20 :=
  (by decide +kernel : ∀ t : Fin grid1.N, _)

/-- The message-passing layer of the arrays the region finds. -/
def G (c : Dev nD) : S100000x64.Idx → EReal :=
  ginLayer (V c main_v5 : S100000x64.Idx → EReal) (V c main_v15 : S100000x64.Idx → EReal)
    (V c main_arg5 : S64x64.Idx → EReal) (fun q => (V c main_v16 : S1x64.Idx → EReal) (ix2 0 q))
    (V c main_arg7 : S64x64.Idx → EReal) (fun q => (V c main_v17 : S1x64.Idx → EReal) (ix2 0 q))

/-- What point t writes back is rows 5000 t … of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  obtain ⟨e0, e1, e2, e3, e4, e5, e6, e7, e8, e9, e10, e11, e12, e13, ht⟩ := idx_facts t
  funext j
  refine (congrFun (Body.gin_eq (iblk1 V c 0 t) (iblk1 V c 1 t) (iblk1 V c 2 t) (iblk1 V c 3 t) (iblk1 V c 4 t) (iblk1 V c 5 t)) j).trans ?_
  obtain ⟨p, q, rfl⟩ : ∃ (p : Fin 5000) (q : Fin 64), j = ix2 p q := ⟨j 0, j 1, eq_ix2 j⟩
  have hp : p.val < 5000 := p.isLt
  have hq : q.val < 64 := q.isLt
  let e : Fin 5000 → Fin 100000 := fun p' => ⟨t.val * 5000 + p'.val, by have := p'.isLt; omega⟩
  have hemb : ((cfg1.win 6).blk t).view.emb (ix2 p q) = ix2 (e p) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  show ginLayer (iblk1 V c 0 t) (iblk1 V c 1 t) (iblk1 V c 2 t) (fun q => iblk1 V c 3 t (ix2 0 q))
      (iblk1 V c 4 t) (fun q => iblk1 V c 5 t (ix2 0 q)) (ix2 p q)
    = G V c (((cfg1.win 6).blk t).view.emb (ix2 p q))
  rw [hemb]
  show _ = ginLayer (V c main_v5 : S100000x64.Idx → EReal) (V c main_v15 : S100000x64.Idx → EReal)
    (V c main_arg5 : S64x64.Idx → EReal) (fun q => (V c main_v16 : S1x64.Idx → EReal) (ix2 0 q))
    (V c main_arg7 : S64x64.Idx → EReal) (fun q => (V c main_v17 : S1x64.Idx → EReal) (ix2 0 q)) (ix2 (e p) q)
  refine ginLayer_rows _ _ _ _ _ _ _ _ _ _ _ _ e (fun p' k => ?_) (fun p' k => ?_) (fun y => ?_) (fun q' => ?_)
    (fun y => ?_) (fun q' => ?_) p q
  · show V c main_v5 (((cfg1.win 0).blk t).view.emb (ix2 p' k)) = V c main_v5 (ix2 (e p') k)
    refine congrArg _ (funext fun a => Fin.ext ?_)
    match a with
    | ⟨0, _⟩ => show win1_0.index t (0 : Fin 2) * 5000 + 1 * p'.val = t.val * 5000 + p'.val; omega
    | ⟨1, _⟩ => show win1_0.index t (1 : Fin 2) * 64 + 1 * k.val = k.val; omega
  · show V c main_v15 (((cfg1.win 1).blk t).view.emb (ix2 p' k)) = V c main_v15 (ix2 (e p') k)
    refine congrArg _ (funext fun a => Fin.ext ?_)
    match a with
    | ⟨0, _⟩ => show win1_1.index t (0 : Fin 2) * 5000 + 1 * p'.val = t.val * 5000 + p'.val; omega
    | ⟨1, _⟩ => show win1_1.index t (1 : Fin 2) * 64 + 1 * k.val = k.val; omega
  · show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · show V c main_v16 (((cfg1.win 3).blk t).view.emb (ix2 0 q')) = V c main_v16 (ix2 0 q')
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q'.val = q'.val; omega
  · show V c main_arg7 (((cfg1.win 4).blk t).view.emb y) = V c main_arg7 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · show V c main_v17 (((cfg1.win 5).blk t).view.emb (ix2 0 q')) = V c main_v17 (ix2 0 q')
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q'.val = q'.val; omega

/-- An index of the output array is in point t's block iff its row is among the block's rows. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v18).slice (win1_6.rect t)).set ↔ _
  rw [View.set_slice_whole, Rect.mem_set_unit]
  exact Iff.rfl

/-- Every block row is some point's. -/
theorem idx_onto : ∀ r : Fin 20, ∃ t : Fin cfg1.N, win1_6.index t = ![r.val, 0] :=
  (by decide +kernel : ∀ r : Fin 20, ∃ t : Fin grid1.N, win1_6.index t = ![r.val, 0])

/-- The 20 blocks tile the array: row r is in the block of point r / 5000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE OUTPUT ARRAY when the region is left: the message-passing layer of the arrays it found. -/
theorem final (c : Dev nD) : (dat1 V c).arrAt 6 cfg1.N = G V c :=
  (dat1 V c).arrAt_eq_of_cover 6 (G V c) (fun t _ => flushed_eq V c t) cover

end Cert.KernelIdeal.Region1

end
-- ==== Proof.Region2.lean ====
/-
  Message-passing region 2: what its output array holds when the region is left.

  The region walks 20 grid points; point t stages rows 5000 t to 5000 t + 4999 of the node features and of the
  aggregated neighbour features, the two whole weight matrices and the two whole bias rows, and writes back rows
  5000 t to 5000 t + 4999 of the output. The layer acts row by row, so the block point t writes back is the same
  rows of the layer of the whole arrays, and the 20 blocks tile the 100000 rows: the output array ends as the
  message-passing layer of the arrays the region found. Stated for any contents V the region may be entered with.
-/
import proofs.«118939_j59055800320835_1_alg».proof.Proof.Gen.KernelIdeal.Frame
import proofs.«118939_j59055800320835_1_alg».proof.Proof.KernelBody
import Idealize.ShloMosaic.Lib.Pipeline.Value

set_option maxRecDepth 16384

noncomputable section

namespace Cert.KernelIdeal.Region2

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two feature arrays and the output at block row t, the weights
    and the bias rows at their only block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 20 :=
  (by decide +kernel : ∀ t : Fin grid2.N, _)

/-- The message-passing layer of the arrays the region finds. -/
def G (c : Dev nD) : S100000x64.Idx → EReal :=
  ginLayer (V c main_v18 : S100000x64.Idx → EReal) (V c main_v28 : S100000x64.Idx → EReal)
    (V c main_arg9 : S64x64.Idx → EReal) (fun q => (V c main_v29 : S1x64.Idx → EReal) (ix2 0 q))
    (V c main_arg11 : S64x64.Idx → EReal) (fun q => (V c main_v30 : S1x64.Idx → EReal) (ix2 0 q))

/-- What point t writes back is rows 5000 t … of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  obtain ⟨e0, e1, e2, e3, e4, e5, e6, e7, e8, e9, e10, e11, e12, e13, ht⟩ := idx_facts t
  funext j
  refine (congrFun (Body.gin2_eq (iblk2 V c 0 t) (iblk2 V c 1 t) (iblk2 V c 2 t) (iblk2 V c 3 t) (iblk2 V c 4 t) (iblk2 V c 5 t)) j).trans ?_
  obtain ⟨p, q, rfl⟩ : ∃ (p : Fin 5000) (q : Fin 64), j = ix2 p q := ⟨j 0, j 1, eq_ix2 j⟩
  have hp : p.val < 5000 := p.isLt
  have hq : q.val < 64 := q.isLt
  let e : Fin 5000 → Fin 100000 := fun p' => ⟨t.val * 5000 + p'.val, by have := p'.isLt; omega⟩
  have hemb : ((cfg2.win 6).blk t).view.emb (ix2 p q) = ix2 (e p) q := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  show ginLayer (iblk2 V c 0 t) (iblk2 V c 1 t) (iblk2 V c 2 t) (fun q => iblk2 V c 3 t (ix2 0 q))
      (iblk2 V c 4 t) (fun q => iblk2 V c 5 t (ix2 0 q)) (ix2 p q)
    = G V c (((cfg2.win 6).blk t).view.emb (ix2 p q))
  rw [hemb]
  show _ = ginLayer (V c main_v18 : S100000x64.Idx → EReal) (V c main_v28 : S100000x64.Idx → EReal)
    (V c main_arg9 : S64x64.Idx → EReal) (fun q => (V c main_v29 : S1x64.Idx → EReal) (ix2 0 q))
    (V c main_arg11 : S64x64.Idx → EReal) (fun q => (V c main_v30 : S1x64.Idx → EReal) (ix2 0 q)) (ix2 (e p) q)
  refine ginLayer_rows _ _ _ _ _ _ _ _ _ _ _ _ e (fun p' k => ?_) (fun p' k => ?_) (fun y => ?_) (fun q' => ?_)
    (fun y => ?_) (fun q' => ?_) p q
  · show V c main_v18 (((cfg2.win 0).blk t).view.emb (ix2 p' k)) = V c main_v18 (ix2 (e p') k)
    refine congrArg _ (funext fun a => Fin.ext ?_)
    match a with
    | ⟨0, _⟩ => show win2_0.index t (0 : Fin 2) * 5000 + 1 * p'.val = t.val * 5000 + p'.val; omega
    | ⟨1, _⟩ => show win2_0.index t (1 : Fin 2) * 64 + 1 * k.val = k.val; omega
  · show V c main_v28 (((cfg2.win 1).blk t).view.emb (ix2 p' k)) = V c main_v28 (ix2 (e p') k)
    refine congrArg _ (funext fun a => Fin.ext ?_)
    match a with
    | ⟨0, _⟩ => show win2_1.index t (0 : Fin 2) * 5000 + 1 * p'.val = t.val * 5000 + p'.val; omega
    | ⟨1, _⟩ => show win2_1.index t (1 : Fin 2) * 64 + 1 * k.val = k.val; omega
  · show V c main_arg9 (((cfg2.win 2).blk t).view.emb y) = V c main_arg9 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  · show V c main_v29 (((cfg2.win 3).blk t).view.emb (ix2 0 q')) = V c main_v29 (ix2 0 q')
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q'.val = q'.val; omega
  · show V c main_arg11 (((cfg2.win 4).blk t).view.emb y) = V c main_arg11 y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  · show V c main_v30 (((cfg2.win 5).blk t).view.emb (ix2 0 q')) = V c main_v30 (ix2 0 q')
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * q'.val = q'.val; omega

/-- An index of the output array is in point t's block iff its row is among the block's rows. -/
theorem mem_blk (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v31).slice (win2_6.rect t)).set ↔ _
  rw [View.set_slice_whole, Rect.mem_set_unit]
  exact Iff.rfl

/-- Every block row is some point's. -/
theorem idx_onto : ∀ r : Fin 20, ∃ t : Fin cfg2.N, win2_6.index t = ![r.val, 0] :=
  (by decide +kernel : ∀ r : Fin 20, ∃ t : Fin grid2.N, win2_6.index t = ![r.val, 0])

/-- The 20 blocks tile the array: row r is in the block of point r / 5000. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE OUTPUT ARRAY when the region is left: the message-passing layer of the arrays it found. -/
theorem final (c : Dev nD) : (dat2 V c).arrAt 6 cfg2.N = G V c :=
  (dat2 V c).arrAt_eq_of_cover 6 (G V c) (fun t _ => flushed_eq V c t) cover

end Cert.KernelIdeal.Region2

end
-- ==== Proof.Region3.lean ====
/-
  Message-passing region 3: what its output array holds when the region is left.

  The region walks 20 grid points; point t stages rows 5000 t to 5000 t + 4999 of the node features and of the
  aggregated neighbour features, the two whole weight matrices and the two whole bias rows, and writes back rows
  5000 t to 5000 t + 4999 of the output. The layer acts row by row, so the block point t writes back is the same
  rows of the layer of the whole arrays, and the 20 blocks tile the 100000 rows: the output array ends as the
  message-passing layer of the arrays the region found. Stated for any contents V the region may be entered with.
-/
import proofs.«118939_j59055800320835_1_alg».proof.Proof.Gen.KernelIdeal.Frame
import proofs.«118939_j59055800320835_1_alg».proof.Proof.KernelBody
import Idealize.ShloMosaic.Lib.Pipeline.Value

set_option maxRecDepth 16384

noncomputable section

namespace Cert.KernelIdeal.Region3

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two feature arrays and the output at block row t, the weights
    and the bias rows at their only block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 20 :=
  (by decide +kernel : ∀ t : Fin grid3.N, _)

/-- The message-passing layer of the arrays the region finds. -/
def G (c : Dev nD) : S100000x64.Idx → EReal :=
  ginLayer (V c main_v31 : S100000x64.Idx → EReal) (V c main_v41 : S100000x64.Idx → EReal)
    (V c main_arg13 : S64x64.Idx → EReal) (fun q => (V c main_v42 : S1x64.Idx → EReal) (ix2 0 q))
    (V c main_arg15 : S64x64.Idx → EReal) (fun q => (V c main_v43 : S1x64.Idx → EReal) (ix2 0 q))

/-- What point t writes back is rows 5000 t … of the layer of the whole arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  obtain ⟨e0, e1, e2, e3, e4, e5, e6, e7, e8, e9, e10, e11, e12, e13, ht⟩ := idx_facts t
  funext j
  refine (congrFun (Body.gin3_eq (iblk3 V c 0 t) (iblk3 V c 1 t) (iblk3 V c 2 t) (iblk3 V c 3 t) (iblk3 V c 4 t) (iblk3 V c 5 t)) j).trans ?_
  obtain ⟨p, q, rfl⟩ : ∃ (p : Fin 5000) (q : Fin 64), j = ix2 p q := ⟨j 0, j 1, eq_ix2 j⟩
  have hp : p.val < 5000 := p.isLt
  have hq : q.val < 64 := q.isLt
  let e : Fin 5000 → Fin 100000 := fun p' => ⟨t.val * 5000 + p'.val, by have := p'.isLt; omega⟩
  have hemb : ((cfg3.win 6).blk t).view.emb (ix2 p q) = ix2 (e p) q := by
    funext a; apply Fin.ext
    match a with
    | ⟨0, _⟩ => show win3_6.index t (0 : Fin 2) * 5000 + 1 * p.val = t.val * 5000 + p.val; omega
    | ⟨1, _⟩ => show win3_6.index t (1 : Fin 2) * 64 + 1 * q.val = q.val; omega
  show ginLayer (iblk3 V c 0 t) (iblk3 V c 1 t) (iblk3 V c 2 t) (fun q => iblk3 V c 3 t (ix2 0 q))
      (iblk3 V c 4 t) (fun q => iblk3 V c 5 t (ix2 0 q)) (ix2 p q)
    = G V c (((cfg3.win 6).blk t).view.emb (ix2 p q))
  rw [hemb]
  show _ = ginLayer (V c main_v31 : S100000x64.Idx → EReal) (V c main_v41 : S100000x64.Idx → EReal)
    (V c main_arg13 : S64x64.Idx → EReal) (fun q => (V c main_v42 : S1x64.Idx → EReal) (ix2 0 q))
    (V c main_arg15 : S64x64.Idx → EReal) (fun q => (V c main_v43 : S1x64.Idx → EReal) (ix2 0 q)) (ix2 (e p) q)
  refine ginLayer_rows _ _ _ _ _ _ _ _ _ _ _ _ e (fun p' k => ?_) (fun p' k => ?_) (fun y => ?_) (fun q' => ?_)
    (fun y => ?_) (fun q' => ?_) p q
  · show V c main_v31 (((cfg3.win 0).blk t).view.emb (ix2 p' k)) = V c main_v31 (ix2 (e p') k)
    refine congrArg _ (funext fun a => Fin.ext ?_)
    match a with
    | ⟨0, _⟩ => show win3_0.index t (0 : Fin 2) * 5000 + 1 * p'.val = t.val * 5000 + p'.val; omega
    | ⟨1, _⟩ => show win3_0.index t (1 : Fin 2) * 64 + 1 * k.val = k.val; omega
  · show V c main_v41 (((cfg3.win 1).blk t).view.emb (ix2 p' k)) = V c main_v41 (ix2 (e p') k)
    refine congrArg _ (funext fun a => Fin.ext ?_)
    match a with
    | ⟨0, _⟩ => show win3_1.index t (0 : Fin 2) * 5000 + 1 * p'.val = t.val * 5000 + p'.val; omega
    | ⟨1, _⟩ => show win3_1.index t (1 : Fin 2) * 64 + 1 * k.val = k.val; omega
  · show V c main_arg13 (((cfg3.win 2).blk t).view.emb y) = V c main_arg13 y
    refine congrArg _ (funext fun a => Fin.ext ?_)
    match a with
    | ⟨0, _⟩ => show win3_2.index t (0 : Fin 2) * 64 + 1 * (y 0).val = (y 0).val; omega
    | ⟨1, _⟩ => show win3_2.index t (1 : Fin 2) * 64 + 1 * (y 1).val = (y 1).val; omega
  · show V c main_v42 (((cfg3.win 3).blk t).view.emb (ix2 0 q')) = V c main_v42 (ix2 0 q')
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q'.val = q'.val; omega
  · show V c main_arg15 (((cfg3.win 4).blk t).view.emb y) = V c main_arg15 y
    refine congrArg _ (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  · show V c main_v43 (((cfg3.win 5).blk t).view.emb (ix2 0 q')) = V c main_v43 (ix2 0 q')
    refine congrArg _ (funext fun a => Fin.ext ?_)
    match a with
    | ⟨0, _⟩ => show win3_5.index t (0 : Fin 2) * 1 + 1 * 0 = 0; omega
    | ⟨1, _⟩ => show win3_5.index t (1 : Fin 2) * 64 + 1 * q'.val = q'.val; omega

/-- An index of the output array is in point t's block iff its row is among the block's rows. -/
theorem mem_blk (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v44).slice (win3_6.rect t)).set ↔ _
  rw [View.set_slice_whole, Rect.mem_set_unit]
  exact Iff.rfl

/-- Every block row is some point's. -/
theorem idx_onto : ∀ r : Fin 20, ∃ t : Fin cfg3.N, win3_6.index t = ![r.val, 0] :=
  (by decide +kernel : ∀ r : Fin 20, ∃ t : Fin grid3.N, win3_6.index t = ![r.val, 0])

/-- The 20 blocks tile the array: row r is in the block of point r / 5000. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := idx_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- THE OUTPUT ARRAY when the region is left: the message-passing layer of the arrays it found. -/
theorem final (c : Dev nD) : (dat3 V c).arrAt 6 cfg3.N = G V c :=
  (dat3 V c).arrAt_eq_of_cover 6 (G V c) (fun t _ => flushed_eq V c t) cover

end Cert.KernelIdeal.Region3

end
-- ==== Proof.HostChains.lean ====
/-
  The host operations the two programs share, each named once.

  Both programs take the two rows of the edge list apart, aggregate neighbour features with the same gather and
  scatter-add, and finish with the same read-out (sum per graph, divide by the node count, final linear layer).
  The kernel program and the reference spell these with their own copies of the same dimension records; the
  chains are named here in both spellings, and the two spellings are one function.
-/
import proofs.«118939_j59055800320835_1_alg».proof.Proof.Gen.KernelIdeal
import proofs.«118939_j59055800320835_1_alg».proof.Proof.Gen.ReferenceIdeal
import Idealize.ShloMosaic.PureOps.Ideal

noncomputable section

namespace Cert.KernelIdeal.Chain

open Cert.KernelIdeal Cert.KernelIdeal.Facts₀ Idealize.ShloMosaic Idealize.ShloMosaic.TcCoe

/-- The source endpoint of every edge: row 0 of the edge list. -/
def src (x1 : (⟨S2x1250000, .i32⟩ : BufTy).Contents (Elt Ideal)) : (⟨S1250000, .i32⟩ : BufTy).Contents (Elt Ideal) :=
  shapeCast _ (extractStridedSlice S1x1250000 ![0, 0] x1 slices_S2x1250000_S1x1250000_0_0) shapeCasts_S1x1250000_S1250000

/-- The target endpoint of every edge: row 1 of the edge list. -/
def dst (x1 : (⟨S2x1250000, .i32⟩ : BufTy).Contents (Elt Ideal)) : (⟨S1250000, .i32⟩ : BufTy).Contents (Elt Ideal) :=
  shapeCast _ (extractStridedSlice S1x1250000 ![1, 0] x1 slices_S2x1250000_S1x1250000_1_0) shapeCasts_S1x1250000_S1250000

/-- Neighbour aggregation: the rows of h at the edges' sources (a negative index wrapped once), summed into the
    rows the edges' targets name, from zero. -/
def agg (s d : (⟨S1250000, .i32⟩ : BufTy).Contents (Elt Ideal)) (h : (⟨S100000x64, .f32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 d)
    (Host.gather gather_S100000x64_S1250000x1_S1250000x64_1_0_n_n_0_1_164 h
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 100000#32))) s)))

/-- The read-out: node features summed per graph, divided by the graph's node count (at least one), then the
    final linear layer. -/
def readout (x2 : (⟨S100000, .i32⟩ : BufTy).Contents (Elt Ideal)) (h : (⟨S100000x64, .f32⟩ : BufTy).Contents (Elt Ideal))
    (x17 : (⟨S64x16, .f32⟩ : BufTy).Contents (Elt Ideal)) (x18 : (⟨S16, .f32⟩ : BufTy).Contents (Elt Ideal)) :
    (⟨S512x16, .f32⟩ : BufTy).Contents (Elt Ideal) :=
  addf (Host.dotGeneral (φ₁ := .f32) (φ₂ := .f32) dot_S512x64_S64x16_S512x16_1_0_0_1_n_n none
      (Host.divf
        (Host.scatterAdd scatter_S512x64_S100000x1_S100000x64_1_0_0_1
          (broadcastInDim S512x64 ![] bcast_S_S512x64 (constant (F := Ideal) S_ .f32 0x00000000#32))
          (broadcastInDim S100000x1 ![0] bcast_S100000_S100000x1_0 x2) h)
        (broadcastInDim S512x64 ![0, 1] bcast_S512x1_S512x64_0_1 (broadcastInDim S512x1 ![0] bcast_S512_S512x1_0
          (maximumf
            (Host.scatterAdd scatter_S512_S100000x1_S100000_n_0_0_1
              (broadcastInDim S512 ![] bcast_S_S512 (constant (F := Ideal) S_ .f32 0x00000000#32))
              (broadcastInDim S100000x1 ![0] bcast_S100000_S100000x1_0 x2)
              (broadcastInDim S100000 ![] bcast_S_S100000 (constant (F := Ideal) S_ .f32 0x3F800000#32)))
            (broadcastInDim S512 ![] bcast_S_S512 (constant (F := Ideal) S_ .f32 0x3F800000#32))))))
      x17)
    (broadcastInDim S512x16 ![0, 1] bcast_S1x16_S512x16_0_1 (broadcastInDim S1x16 ![1] bcast_S16_S1x16_1 x18))

end Cert.KernelIdeal.Chain

namespace Cert.ReferenceIdeal.Chain

open Cert.ReferenceIdeal Cert.ReferenceIdeal.Facts₀ Idealize.ShloMosaic Idealize.ShloMosaic.TcCoe

/-- The source endpoint of every edge: row 0 of the edge list. -/
def src (x1 : (⟨S2x1250000, .i32⟩ : BufTy).Contents (Elt Ideal)) : (⟨S1250000, .i32⟩ : BufTy).Contents (Elt Ideal) :=
  shapeCast _ (extractStridedSlice S1x1250000 ![0, 0] x1 slices_S2x1250000_S1x1250000_0_0) shapeCasts_S1x1250000_S1250000

/-- The target endpoint of every edge: row 1 of the edge list. -/
def dst (x1 : (⟨S2x1250000, .i32⟩ : BufTy).Contents (Elt Ideal)) : (⟨S1250000, .i32⟩ : BufTy).Contents (Elt Ideal) :=
  shapeCast _ (extractStridedSlice S1x1250000 ![1, 0] x1 slices_S2x1250000_S1x1250000_1_0) shapeCasts_S1x1250000_S1250000

/-- Neighbour aggregation: the rows of h at the edges' sources (a negative index wrapped once), summed into the
    rows the edges' targets name, from zero. -/
def agg (s d : (⟨S1250000, .i32⟩ : BufTy).Contents (Elt Ideal)) (h : (⟨S100000x64, .f32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 d)
    (Host.gather gather_S100000x64_S1250000x1_S1250000x64_1_0_n_n_0_1_164 h
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 100000#32))) s)))

/-- The read-out: node features summed per graph, divided by the graph's node count (at least one), then the
    final linear layer. -/
def readout (x2 : (⟨S100000, .i32⟩ : BufTy).Contents (Elt Ideal)) (h : (⟨S100000x64, .f32⟩ : BufTy).Contents (Elt Ideal))
    (x17 : (⟨S64x16, .f32⟩ : BufTy).Contents (Elt Ideal)) (x18 : (⟨S16, .f32⟩ : BufTy).Contents (Elt Ideal)) :
    (⟨S512x16, .f32⟩ : BufTy).Contents (Elt Ideal) :=
  addf (Host.dotGeneral (φ₁ := .f32) (φ₂ := .f32) dot_S512x64_S64x16_S512x16_1_0_0_1_n_n none
      (Host.divf
        (Host.scatterAdd scatter_S512x64_S100000x1_S100000x64_1_0_0_1
          (broadcastInDim S512x64 ![] bcast_S_S512x64 (constant (F := Ideal) S_ .f32 0x00000000#32))
          (broadcastInDim S100000x1 ![0] bcast_S100000_S100000x1_0 x2) h)
        (broadcastInDim S512x64 ![0, 1] bcast_S512x1_S512x64_0_1 (broadcastInDim S512x1 ![0] bcast_S512_S512x1_0
          (maximumf
            (Host.scatterAdd scatter_S512_S100000x1_S100000_n_0_0_1
              (broadcastInDim S512 ![] bcast_S_S512 (constant (F := Ideal) S_ .f32 0x00000000#32))
              (broadcastInDim S100000x1 ![0] bcast_S100000_S100000x1_0 x2)
              (broadcastInDim S100000 ![] bcast_S_S100000 (constant (F := Ideal) S_ .f32 0x3F800000#32)))
            (broadcastInDim S512 ![] bcast_S_S512 (constant (F := Ideal) S_ .f32 0x3F800000#32))))))
      x17)
    (broadcastInDim S512x16 ![0, 1] bcast_S1x16_S512x16_0_1 (broadcastInDim S1x16 ![1] bcast_S16_S1x16_1 x18))

end Cert.ReferenceIdeal.Chain

namespace Cert.Chains

open Idealize.ShloMosaic

theorem src_eq : @Cert.KernelIdeal.Chain.src = @Cert.ReferenceIdeal.Chain.src := rfl
theorem dst_eq : @Cert.KernelIdeal.Chain.dst = @Cert.ReferenceIdeal.Chain.dst := rfl
theorem agg_eq : @Cert.KernelIdeal.Chain.agg = @Cert.ReferenceIdeal.Chain.agg := rfl
theorem readout_eq : @Cert.KernelIdeal.Chain.readout = @Cert.ReferenceIdeal.Chain.readout := rfl

end Cert.Chains

end
-- ==== Proof.Network.lean ====
/-
  The whole network as one function of the nineteen argument arrays.

  The node features pass through the embedding layer, then three message-passing layers — each aggregates the
  features along the edges and applies two dense layers to the sum — and the read-out turns the last features into
  one row per graph. Both programs are shown to compute this function.
-/
import proofs.«118939_j59055800320835_1_alg».proof.Proof.Spec
import proofs.«118939_j59055800320835_1_alg».proof.Proof.HostChains

noncomputable section

namespace Cert.Network

open Cert.ReferenceIdeal Cert.GinSpec Idealize.ShloMosaic Idealize.ShloMosaic.TcCoe Idealize.ShloMosaic.ValueIdx

/-- A bias vector as a function of the column. -/
def row (b : (⟨S64, .f32⟩ : BufTy).Contents (Elt Ideal)) : Fin 64 → EReal := fun q => b (ix1 q)

/-- One message-passing layer over the edge list x1. -/
def layer (h : (⟨S100000x64, .f32⟩ : BufTy).Contents (Elt Ideal)) (x1 : (⟨S2x1250000, .i32⟩ : BufTy).Contents (Elt Ideal))
    (Wa : (⟨S64x64, .f32⟩ : BufTy).Contents (Elt Ideal)) (ba : (⟨S64, .f32⟩ : BufTy).Contents (Elt Ideal)) (Wb : (⟨S64x64, .f32⟩ : BufTy).Contents (Elt Ideal)) (bb : (⟨S64, .f32⟩ : BufTy).Contents (Elt Ideal)) :
    (⟨S100000x64, .f32⟩ : BufTy).Contents (Elt Ideal) :=
  ginLayer h (Cert.ReferenceIdeal.Chain.agg (Cert.ReferenceIdeal.Chain.src x1) (Cert.ReferenceIdeal.Chain.dst x1) h)
    Wa (row ba) Wb (row bb)

/-- The network. -/
def forward (x0 : (⟨S100000x64, .f32⟩ : BufTy).Contents (Elt Ideal)) (x1 : (⟨S2x1250000, .i32⟩ : BufTy).Contents (Elt Ideal)) (x2 : (⟨S100000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))
    (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal))
    (x17 : (⟨S64x16, .f32⟩ : BufTy).Contents (Elt Ideal)) (x18 : (⟨S16, .f32⟩ : BufTy).Contents (Elt Ideal)) : (⟨S512x16, .f32⟩ : BufTy).Contents (Elt Ideal) :=
  Cert.ReferenceIdeal.Chain.readout x2
    (layer (layer (layer (denseRelu x0 x3 (row x4)) x1 x5 x6 x7 x8) x1 x9 x10 x11 x12) x1 x13 x14 x15 x16) x17 x18

end Cert.Network

end
-- ==== Proof.KernelValue.lean ====
/-
  The kernel program's result as a function of its arguments.

  Walking the program's segments in order: host stretch 0 takes the edge list apart and reshapes the first bias;
  region 0 leaves the embedding layer of the node features; then three times a host stretch aggregates the current
  features along the edges and reshapes two biases, and a region leaves the message-passing layer of the features
  and the aggregate; the last host stretch is the read-out. Nothing writes an argument array, so each segment
  finds the arguments as launched, and the result buffer ends holding the network of the arguments.
-/
import proofs.«118939_j59055800320835_1_alg».proof.Proof.Gen.KernelIdeal.Frame
import proofs.«118939_j59055800320835_1_alg».proof.Proof.KernelKeep
import proofs.«118939_j59055800320835_1_alg».proof.Proof.Region0
import proofs.«118939_j59055800320835_1_alg».proof.Proof.Region1
import proofs.«118939_j59055800320835_1_alg».proof.Proof.Region2
import proofs.«118939_j59055800320835_1_alg».proof.Proof.Region3
import proofs.«118939_j59055800320835_1_alg».proof.Proof.HostChains
import proofs.«118939_j59055800320835_1_alg».proof.Proof.Network
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.GinSpec Cert.KernelIdeal.Keep
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Small facts -/

theorem denseRelu_congr {N : ℕ} {h h' : (⟨2, ![N, 64]⟩ : Shape).Idx → EReal} {W W' : (⟨2, ![64, 64]⟩ : Shape).Idx → EReal}
    {b b' : Fin 64 → EReal} (eh : h = h') (eW : W = W') (eb : b = b') : denseRelu h W b = denseRelu h' W' b' := by
  subst eh eW eb; rfl

theorem ginLayer_congr {N : ℕ} {h h' a a' : (⟨2, ![N, 64]⟩ : Shape).Idx → EReal}
    {Wa Wa' Wb Wb' : (⟨2, ![64, 64]⟩ : Shape).Idx → EReal} {ba ba' bb bb' : Fin 64 → EReal}
    (eh : h = h') (ea : a = a') (eWa : Wa = Wa') (eba : ba = ba') (eWb : Wb = Wb') (ebb : bb = bb') :
    ginLayer h a Wa ba Wb bb = ginLayer h' a' Wa' ba' Wb' bb' := by
  subst eh ea eWa eba eWb ebb; rfl

/-- A bias vector reshaped to one row, read at that row's entry q. -/
theorem biasRow (x : (⟨S64, .f32⟩ : BufTy).Contents (Elt Ideal)) (q : Fin 64) :
    shapeCast S1x64 x shapeCasts_S64_S1x64 (ix2 0 q) = Cert.Network.row x q := by
  refine (shapeCast_addUnit_apply ![64] x shapeCasts_S64_S1x64 (ix2 0 q)).trans (congrArg x (funext fun a => ?_))
  match a with
  | ⟨0, _⟩ => rfl

/-- One message-passing layer over the edge list x1, in the kernel program's spelling of the shared chains. -/
def kLayer (h : (⟨S100000x64, .f32⟩ : BufTy).Contents (Elt Ideal)) (x1 : (⟨S2x1250000, .i32⟩ : BufTy).Contents (Elt Ideal))
    (Wa : (⟨S64x64, .f32⟩ : BufTy).Contents (Elt Ideal)) (ba : (⟨S64, .f32⟩ : BufTy).Contents (Elt Ideal))
    (Wb : (⟨S64x64, .f32⟩ : BufTy).Contents (Elt Ideal)) (bb : (⟨S64, .f32⟩ : BufTy).Contents (Elt Ideal)) :
    (⟨S100000x64, .f32⟩ : BufTy).Contents (Elt Ideal) :=
  ginLayer h (Chain.agg (Chain.src x1) (Chain.dst x1) h) Wa (Cert.Network.row ba) Wb (Cert.Network.row bb)

/-! ## Host stretch 0 and the embedding region -/

theorem v1_raw (Wv : Valuation τ sig (Elt Ideal)) : StableHlo.after hostOps0 Wv (Proc.devRef .tc main_v1) = Chain.src (Wv (Proc.devRef .tc main_arg1)) := by
  after_results
  all_goals rfl

theorem v3_raw (Wv : Valuation τ sig (Elt Ideal)) : StableHlo.after hostOps0 Wv (Proc.devRef .tc main_v3) = Chain.dst (Wv (Proc.devRef .tc main_arg1)) := by
  after_results
  all_goals rfl

theorem v4_raw (Wv : Valuation τ sig (Elt Ideal)) : StableHlo.after hostOps0 Wv (Proc.devRef .tc main_v4) = shapeCast S1x64 (Wv (Proc.devRef .tc main_arg4)) shapeCasts_S64_S1x64 := by
  after_results
  all_goals rfl

theorem v1_at1 : W1 m ρ c (Proc.devRef .tc main_v1) = Chain.src (m ((c : Thread nD τ).loc main_arg1)) := v1_raw (W0 m ρ c)

theorem v3_at1 : W1 m ρ c (Proc.devRef .tc main_v3) = Chain.dst (m ((c : Thread nD τ).loc main_arg1)) := v3_raw (W0 m ρ c)

theorem v4_at1 : W1 m ρ c (Proc.devRef .tc main_v4) = shapeCast S1x64 (m ((c : Thread nD τ).loc main_arg4)) shapeCasts_S64_S1x64 := v4_raw (W0 m ρ c)

/-- The features after the embedding layer. -/
def H0 : (⟨S100000x64, .f32⟩ : BufTy).Contents (Elt Ideal) :=
  denseRelu (m ((c : Thread nD τ).loc main_arg0)) (m ((c : Thread nD τ).loc main_arg3)) (Cert.Network.row (m ((c : Thread nD τ).loc main_arg4)))

theorem H0_at : W2 m ρ c (Proc.devRef .tc main_v5) = H0 m c := by
  refine (W2_arr m ρ c 3).trans ((Region0.final (V1 m ρ) c).trans ?_)
  have e0 : W1 m ρ c (Proc.devRef .tc main_arg0) = (m ((c : Thread nD τ).loc main_arg0)) := to1 m ρ c main_arg0 (by decide)
  have e3 : W1 m ρ c (Proc.devRef .tc main_arg3) = (m ((c : Thread nD τ).loc main_arg3)) := to1 m ρ c main_arg3 (by decide)
  have e4 : (fun q : Fin 64 => (W1 m ρ c (Proc.devRef .tc main_v4) : S1x64.Idx → EReal) (ix2 0 q)) = Cert.Network.row (m ((c : Thread nD τ).loc main_arg4)) := by
    funext q
    rw [v4_at1]
    exact biasRow _ q
  exact denseRelu_congr e0 e3 e4

/-! ## Message-passing layer 1: host stretch 1, then region 1 -/

set_option maxHeartbeats 8000000 in
/-- The aggregate host stretch 1 computes, from whatever buffers it finds. -/
theorem agg1_raw (Wv : Valuation τ sig (Elt Ideal)) : StableHlo.after hostOps1 Wv (Proc.devRef .tc main_v15)
    = Chain.agg (Wv (Proc.devRef .tc main_v1)) (Wv (Proc.devRef .tc main_v3)) (Wv (Proc.devRef .tc main_v5)) := by
  after_results
  all_goals rfl

set_option maxHeartbeats 8000000 in
/-- The two bias rows host stretch 1 reshapes. -/
theorem ba1_raw (Wv : Valuation τ sig (Elt Ideal)) : StableHlo.after hostOps1 Wv (Proc.devRef .tc main_v16) = shapeCast S1x64 (Wv (Proc.devRef .tc main_arg6)) shapeCasts_S64_S1x64 := by
  after_results
  all_goals rfl

set_option maxHeartbeats 8000000 in
theorem bb1_raw (Wv : Valuation τ sig (Elt Ideal)) : StableHlo.after hostOps1 Wv (Proc.devRef .tc main_v17) = shapeCast S1x64 (Wv (Proc.devRef .tc main_arg8)) shapeCasts_S64_S1x64 := by
  after_results
  all_goals rfl

/-- The features after message-passing layer 1. -/
def H1 : (⟨S100000x64, .f32⟩ : BufTy).Contents (Elt Ideal) :=
  kLayer (H0 m c) (m ((c : Thread nD τ).loc main_arg1)) (m ((c : Thread nD τ).loc main_arg5)) (m ((c : Thread nD τ).loc main_arg6)) (m ((c : Thread nD τ).loc main_arg7)) (m ((c : Thread nD τ).loc main_arg8))

/-- Region 1's output array holds them when the region is left. -/
theorem H1_at : W4 m ρ c (Proc.devRef .tc main_v18) = H1 m c := by
  refine (W4_arr m ρ c 6).trans ((Region1.final (V3 m ρ) c).trans ?_)
  have eh : W3 m ρ c (Proc.devRef .tc main_v5) = H0 m c :=
    (keep3 m ρ c main_v5 (by decide)).trans (H0_at m ρ c)
  have es : W2 m ρ c (Proc.devRef .tc main_v1) = Chain.src (m ((c : Thread nD τ).loc main_arg1)) := (from1_to2 m ρ c main_v1 (by decide)).trans (v1_at1 m ρ c)
  have ed : W2 m ρ c (Proc.devRef .tc main_v3) = Chain.dst (m ((c : Thread nD τ).loc main_arg1)) := (from1_to2 m ρ c main_v3 (by decide)).trans (v3_at1 m ρ c)
  have ea : W3 m ρ c (Proc.devRef .tc main_v15) = Chain.agg (Chain.src (m ((c : Thread nD τ).loc main_arg1))) (Chain.dst (m ((c : Thread nD τ).loc main_arg1))) (H0 m c) := by
    refine (agg1_raw (W2 m ρ c)).trans ?_
    rw [es, ed, H0_at]
  have eWa : W3 m ρ c (Proc.devRef .tc main_arg5) = (m ((c : Thread nD τ).loc main_arg5)) := (keep3 m ρ c main_arg5 (by decide)).trans (to2 m ρ c main_arg5 (by decide) (by decide))
  have eWb : W3 m ρ c (Proc.devRef .tc main_arg7) = (m ((c : Thread nD τ).loc main_arg7)) := (keep3 m ρ c main_arg7 (by decide)).trans (to2 m ρ c main_arg7 (by decide) (by decide))
  have eba : (fun q : Fin 64 => (W3 m ρ c (Proc.devRef .tc main_v16) : S1x64.Idx → EReal) (ix2 0 q)) = Cert.Network.row (m ((c : Thread nD τ).loc main_arg6)) := by
    funext q
    refine (congrFun (ba1_raw (W2 m ρ c)) (ix2 0 q)).trans ?_
    rw [to2 m ρ c main_arg6 (by decide) (by decide)]
    exact biasRow _ q
  have ebb : (fun q : Fin 64 => (W3 m ρ c (Proc.devRef .tc main_v17) : S1x64.Idx → EReal) (ix2 0 q)) = Cert.Network.row (m ((c : Thread nD τ).loc main_arg8)) := by
    funext q
    refine (congrFun (bb1_raw (W2 m ρ c)) (ix2 0 q)).trans ?_
    rw [to2 m ρ c main_arg8 (by decide) (by decide)]
    exact biasRow _ q
  exact ginLayer_congr eh ea eWa eba eWb ebb

/-! ## Message-passing layer 2: host stretch 2, then region 2 -/

set_option maxHeartbeats 8000000 in
/-- The aggregate host stretch 2 computes, from whatever buffers it finds. -/
theorem agg2_raw (Wv : Valuation τ sig (Elt Ideal)) : StableHlo.after hostOps2 Wv (Proc.devRef .tc main_v28)
    = Chain.agg (Wv (Proc.devRef .tc main_v1)) (Wv (Proc.devRef .tc main_v3)) (Wv (Proc.devRef .tc main_v18)) := by
  after_results
  all_goals rfl

set_option maxHeartbeats 8000000 in
/-- The two bias rows host stretch 2 reshapes. -/
theorem ba2_raw (Wv : Valuation τ sig (Elt Ideal)) : StableHlo.after hostOps2 Wv (Proc.devRef .tc main_v29) = shapeCast S1x64 (Wv (Proc.devRef .tc main_arg10)) shapeCasts_S64_S1x64 := by
  after_results
  all_goals rfl

set_option maxHeartbeats 8000000 in
theorem bb2_raw (Wv : Valuation τ sig (Elt Ideal)) : StableHlo.after hostOps2 Wv (Proc.devRef .tc main_v30) = shapeCast S1x64 (Wv (Proc.devRef .tc main_arg12)) shapeCasts_S64_S1x64 := by
  after_results
  all_goals rfl

/-- The features after message-passing layer 2. -/
def H2 : (⟨S100000x64, .f32⟩ : BufTy).Contents (Elt Ideal) :=
  kLayer (H1 m c) (m ((c : Thread nD τ).loc main_arg1)) (m ((c : Thread nD τ).loc main_arg9)) (m ((c : Thread nD τ).loc main_arg10)) (m ((c : Thread nD τ).loc main_arg11)) (m ((c : Thread nD τ).loc main_arg12))

/-- Region 2's output array holds them when the region is left. -/
theorem H2_at : W6 m ρ c (Proc.devRef .tc main_v31) = H2 m c := by
  refine (W6_arr m ρ c 6).trans ((Region2.final (V5 m ρ) c).trans ?_)
  have eh : W5 m ρ c (Proc.devRef .tc main_v18) = H1 m c :=
    (keep5 m ρ c main_v18 (by decide)).trans (H1_at m ρ c)
  have es : W4 m ρ c (Proc.devRef .tc main_v1) = Chain.src (m ((c : Thread nD τ).loc main_arg1)) := (from1_to4 m ρ c main_v1 (by decide) (by decide) (by decide)).trans (v1_at1 m ρ c)
  have ed : W4 m ρ c (Proc.devRef .tc main_v3) = Chain.dst (m ((c : Thread nD τ).loc main_arg1)) := (from1_to4 m ρ c main_v3 (by decide) (by decide) (by decide)).trans (v3_at1 m ρ c)
  have ea : W5 m ρ c (Proc.devRef .tc main_v28) = Chain.agg (Chain.src (m ((c : Thread nD τ).loc main_arg1))) (Chain.dst (m ((c : Thread nD τ).loc main_arg1))) (H1 m c) := by
    refine (agg2_raw (W4 m ρ c)).trans ?_
    rw [es, ed, H1_at]
  have eWa : W5 m ρ c (Proc.devRef .tc main_arg9) = (m ((c : Thread nD τ).loc main_arg9)) := (keep5 m ρ c main_arg9 (by decide)).trans (to4 m ρ c main_arg9 (by decide) (by decide) (by decide) (by decide))
  have eWb : W5 m ρ c (Proc.devRef .tc main_arg11) = (m ((c : Thread nD τ).loc main_arg11)) := (keep5 m ρ c main_arg11 (by decide)).trans (to4 m ρ c main_arg11 (by decide) (by decide) (by decide) (by decide))
  have eba : (fun q : Fin 64 => (W5 m ρ c (Proc.devRef .tc main_v29) : S1x64.Idx → EReal) (ix2 0 q)) = Cert.Network.row (m ((c : Thread nD τ).loc main_arg10)) := by
    funext q
    refine (congrFun (ba2_raw (W4 m ρ c)) (ix2 0 q)).trans ?_
    rw [to4 m ρ c main_arg10 (by decide) (by decide) (by decide) (by decide)]
    exact biasRow _ q
  have ebb : (fun q : Fin 64 => (W5 m ρ c (Proc.devRef .tc main_v30) : S1x64.Idx → EReal) (ix2 0 q)) = Cert.Network.row (m ((c : Thread nD τ).loc main_arg12)) := by
    funext q
    refine (congrFun (bb2_raw (W4 m ρ c)) (ix2 0 q)).trans ?_
    rw [to4 m ρ c main_arg12 (by decide) (by decide) (by decide) (by decide)]
    exact biasRow _ q
  exact ginLayer_congr eh ea eWa eba eWb ebb

/-! ## Message-passing layer 3: host stretch 3, then region 3 -/

set_option maxHeartbeats 8000000 in
/-- The aggregate host stretch 3 computes, from whatever buffers it finds. -/
theorem agg3_raw (Wv : Valuation τ sig (Elt Ideal)) : StableHlo.after hostOps3 Wv (Proc.devRef .tc main_v41)
    = Chain.agg (Wv (Proc.devRef .tc main_v1)) (Wv (Proc.devRef .tc main_v3)) (Wv (Proc.devRef .tc main_v31)) := by
  after_results
  all_goals rfl

set_option maxHeartbeats 8000000 in
/-- The two bias rows host stretch 3 reshapes. -/
theorem ba3_raw (Wv : Valuation τ sig (Elt Ideal)) : StableHlo.after hostOps3 Wv (Proc.devRef .tc main_v42) = shapeCast S1x64 (Wv (Proc.devRef .tc main_arg14)) shapeCasts_S64_S1x64 := by
  after_results
  all_goals rfl

set_option maxHeartbeats 8000000 in
theorem bb3_raw (Wv : Valuation τ sig (Elt Ideal)) : StableHlo.after hostOps3 Wv (Proc.devRef .tc main_v43) = shapeCast S1x64 (Wv (Proc.devRef .tc main_arg16)) shapeCasts_S64_S1x64 := by
  after_results
  all_goals rfl

/-- The features after message-passing layer 3. -/
def H3 : (⟨S100000x64, .f32⟩ : BufTy).Contents (Elt Ideal) :=
  kLayer (H2 m c) (m ((c : Thread nD τ).loc main_arg1)) (m ((c : Thread nD τ).loc main_arg13)) (m ((c : Thread nD τ).loc main_arg14)) (m ((c : Thread nD τ).loc main_arg15)) (m ((c : Thread nD τ).loc main_arg16))

/-- Region 3's output array holds them when the region is left. -/
theorem H3_at : W8 m ρ c (Proc.devRef .tc main_v44) = H3 m c := by
  refine (W8_arr m ρ c 6).trans ((Region3.final (V7 m ρ) c).trans ?_)
  have eh : W7 m ρ c (Proc.devRef .tc main_v31) = H2 m c :=
    (keep7 m ρ c main_v31 (by decide)).trans (H2_at m ρ c)
  have es : W6 m ρ c (Proc.devRef .tc main_v1) = Chain.src (m ((c : Thread nD τ).loc main_arg1)) := (from1_to6 m ρ c main_v1 (by decide) (by decide) (by decide) (by decide) (by decide)).trans (v1_at1 m ρ c)
  have ed : W6 m ρ c (Proc.devRef .tc main_v3) = Chain.dst (m ((c : Thread nD τ).loc main_arg1)) := (from1_to6 m ρ c main_v3 (by decide) (by decide) (by decide) (by decide) (by decide)).trans (v3_at1 m ρ c)
  have ea : W7 m ρ c (Proc.devRef .tc main_v41) = Chain.agg (Chain.src (m ((c : Thread nD τ).loc main_arg1))) (Chain.dst (m ((c : Thread nD τ).loc main_arg1))) (H2 m c) := by
    refine (agg3_raw (W6 m ρ c)).trans ?_
    rw [es, ed, H2_at]
  have eWa : W7 m ρ c (Proc.devRef .tc main_arg13) = (m ((c : Thread nD τ).loc main_arg13)) := (keep7 m ρ c main_arg13 (by decide)).trans (to6 m ρ c main_arg13 (by decide) (by decide) (by decide) (by decide) (by decide) (by decide))
  have eWb : W7 m ρ c (Proc.devRef .tc main_arg15) = (m ((c : Thread nD τ).loc main_arg15)) := (keep7 m ρ c main_arg15 (by decide)).trans (to6 m ρ c main_arg15 (by decide) (by decide) (by decide) (by decide) (by decide) (by decide))
  have eba : (fun q : Fin 64 => (W7 m ρ c (Proc.devRef .tc main_v42) : S1x64.Idx → EReal) (ix2 0 q)) = Cert.Network.row (m ((c : Thread nD τ).loc main_arg14)) := by
    funext q
    refine (congrFun (ba3_raw (W6 m ρ c)) (ix2 0 q)).trans ?_
    rw [to6 m ρ c main_arg14 (by decide) (by decide) (by decide) (by decide) (by decide) (by decide)]
    exact biasRow _ q
  have ebb : (fun q : Fin 64 => (W7 m ρ c (Proc.devRef .tc main_v43) : S1x64.Idx → EReal) (ix2 0 q)) = Cert.Network.row (m ((c : Thread nD τ).loc main_arg16)) := by
    funext q
    refine (congrFun (bb3_raw (W6 m ρ c)) (ix2 0 q)).trans ?_
    rw [to6 m ρ c main_arg16 (by decide) (by decide) (by decide) (by decide) (by decide) (by decide)]
    exact biasRow _ q
  exact ginLayer_congr eh ea eWa eba eWb ebb

/-! ## The read-out -/

set_option maxHeartbeats 16000000 in
/-- The last host stretch is the read-out of whatever buffers it finds. -/
theorem out_raw (Wv : Valuation τ sig (Elt Ideal)) : StableHlo.after hostOps4 Wv (Proc.devRef .tc main_v60)
    = Chain.readout (Wv (Proc.devRef .tc main_arg2)) (Wv (Proc.devRef .tc main_v44)) (Wv (Proc.devRef .tc main_arg17)) (Wv (Proc.devRef .tc main_arg18)) := by
  after_results
  all_goals rfl

/-- The kernel-spelled layer is the network's layer. -/
theorem kLayer_eq (h : (⟨S100000x64, .f32⟩ : BufTy).Contents (Elt Ideal)) (x1 : (⟨S2x1250000, .i32⟩ : BufTy).Contents (Elt Ideal))
    (Wa : (⟨S64x64, .f32⟩ : BufTy).Contents (Elt Ideal)) (ba : (⟨S64, .f32⟩ : BufTy).Contents (Elt Ideal))
    (Wb : (⟨S64x64, .f32⟩ : BufTy).Contents (Elt Ideal)) (bb : (⟨S64, .f32⟩ : BufTy).Contents (Elt Ideal)) :
    kLayer h x1 Wa ba Wb bb = Cert.Network.layer h x1 Wa ba Wb bb := by
  unfold kLayer Cert.Network.layer
  rw [Cert.Chains.agg_eq, Cert.Chains.src_eq, Cert.Chains.dst_eq]

/-- THE KERNEL PROGRAM'S RESULT is the network of its arguments. -/
theorem result_eq : W9 m ρ c (Proc.devRef .tc main_v60)
    = Cert.Network.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (out_raw (W8 m ρ c)).trans ?_
  rw [H3_at, to8 m ρ c main_arg2 (by decide) (by decide) (by decide) (by decide) (by decide) (by decide) (by decide) (by decide),
    to8 m ρ c main_arg17 (by decide) (by decide) (by decide) (by decide) (by decide) (by decide) (by decide) (by decide),
    to8 m ρ c main_arg18 (by decide) (by decide) (by decide) (by decide) (by decide) (by decide) (by decide) (by decide)]
  unfold H3 H2 H1 H0 Cert.Network.forward
  rw [kLayer_eq, kLayer_eq, kLayer_eq, Cert.Chains.readout_eq]

end Cert.KernelIdeal.KValue

end
-- ==== Proof.RefValue.lean ====
/-
  The reference program, layer by layer.

  The reference applies to the node features a dense layer with the rectifier, then three message-passing layers,
  then the read-out. Each dense layer is a matrix product on the host, a bias spread over the rows and a maximum
  with zero: entry (p, q) is max(sum over k of h (p, k) W (k, q) + b q, 0). A message-passing layer is two of these
  applied to the sum of the features and the aggregated neighbour features; the aggregation and the read-out are
  the shared host chains.
-/
import proofs.«118939_j59055800320835_1_alg».proof.Proof.Gen.ReferenceIdeal.Read
import proofs.«118939_j59055800320835_1_alg».proof.Proof.Spec
import proofs.«118939_j59055800320835_1_alg».proof.Proof.HostChains
import proofs.«118939_j59055800320835_1_alg».proof.Proof.Network

noncomputable section

namespace Cert.ReferenceIdeal.RefValue

open Cert.ReferenceIdeal Cert.ReferenceIdeal.Gen Cert.ReferenceIdeal.Read Cert.GinSpec
open Idealize.ShloMosaic Idealize.ShloMosaic.TcCoe Idealize.ShloMosaic.ValueIdx

/-- The reference's first layer, for ANY three operands: the dense layer with the rectifier. -/
theorem dense_eq (h : (⟨S100000x64, .f32⟩ : BufTy).Contents (Elt Ideal)) (W : (⟨S64x64, .f32⟩ : BufTy).Contents (Elt Ideal)) (b : (⟨S64, .f32⟩ : BufTy).Contents (Elt Ideal)) :
    val_main_v8 (F := Ideal) h W b = denseRelu h W (fun q => b (ix1 q)) := by
  funext i
  obtain ⟨p, q, rfl⟩ : ∃ (p : Fin 100000) (q : Fin 64), i = ix2 p q := ⟨i 0, i 1, eq_ix2 i⟩
  rw [denseRelu_ix2, val_main_v8_apply, val_main_v7_apply, val_main_v4_apply, val_main_v6_apply, val_main_v5_apply,
    val_main_call0_v0_apply, val_main_call0_cst_apply]
  have e1 : ∀ k : Fin 64, lidx_main_v4 (ix2 p q) k = ix2 p k := fun k => funext fun a => Fin.ext (by
    match a with
    | ⟨0, _⟩ => rfl
    | ⟨1, _⟩ => rfl)
  have e2 : ∀ k : Fin 64, ridx_main_v4 (ix2 p q) k = ix2 k q := fun k => funext fun a => Fin.ext (by
    match a with
    | ⟨0, _⟩ => rfl
    | ⟨1, _⟩ => rfl)
  have e3 : idx_main_v5 (idx_main_v6 (ix2 p q)) = ix1 q := funext fun a => Fin.ext (by
    match a with
    | ⟨0, _⟩ => rfl)
  simp only [e1, e2, e3]
  rfl

variable (x0 : (⟨S100000x64, .f32⟩ : BufTy).Contents (Elt Ideal)) (x1 : (⟨S2x1250000, .i32⟩ : BufTy).Contents (Elt Ideal)) (x2 : (⟨S100000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))
    (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal))
    (x17 : (⟨S64x16, .f32⟩ : BufTy).Contents (Elt Ideal)) (x18 : (⟨S16, .f32⟩ : BufTy).Contents (Elt Ideal))

/-! ## The three message-passing layers: each is the first layer's operations applied twice to a sum -/

theorem layer1_unfold : val_main_v29 (F := Ideal) x0 x1 x3 x4 x5 x6 x7 x8
    = val_main_v8 (F := Ideal) (val_main_v8 (F := Ideal) (addf (val_main_v8 (F := Ideal) x0 x3 x4 : FVec Ideal S100000x64 .f32) (val_main_v18 (F := Ideal) x0 x1 x3 x4 : FVec Ideal S100000x64 .f32) : FVec Ideal S100000x64 .f32) x5 x6) x7 x8 := rfl

theorem layer2_unfold : val_main_v50 (F := Ideal) x0 x1 x3 x4 x5 x6 x7 x8 x9 x10 x11 x12
    = val_main_v8 (F := Ideal) (val_main_v8 (F := Ideal) (addf (val_main_v29 (F := Ideal) x0 x1 x3 x4 x5 x6 x7 x8 : FVec Ideal S100000x64 .f32) (val_main_v39 (F := Ideal) x0 x1 x3 x4 x5 x6 x7 x8 : FVec Ideal S100000x64 .f32) : FVec Ideal S100000x64 .f32) x9 x10) x11 x12 := rfl

theorem layer3_unfold : val_main_v71 (F := Ideal) x0 x1 x3 x4 x5 x6 x7 x8 x9 x10 x11 x12 x13 x14 x15 x16
    = val_main_v8 (F := Ideal) (val_main_v8 (F := Ideal) (addf (val_main_v50 (F := Ideal) x0 x1 x3 x4 x5 x6 x7 x8 x9 x10 x11 x12 : FVec Ideal S100000x64 .f32) (val_main_v60 (F := Ideal) x0 x1 x3 x4 x5 x6 x7 x8 x9 x10 x11 x12 : FVec Ideal S100000x64 .f32) : FVec Ideal S100000x64 .f32) x13 x14) x15 x16 := rfl

/-! ## The aggregations and the read-out are the shared chains -/

theorem agg1_unfold : val_main_v18 (F := Ideal) x0 x1 x3 x4
    = Chain.agg (Chain.src x1) (Chain.dst x1) (val_main_v8 (F := Ideal) x0 x3 x4) := rfl

theorem agg2_unfold : val_main_v39 (F := Ideal) x0 x1 x3 x4 x5 x6 x7 x8
    = Chain.agg (Chain.src x1) (Chain.dst x1) (val_main_v29 (F := Ideal) x0 x1 x3 x4 x5 x6 x7 x8) := rfl

theorem agg3_unfold : val_main_v60 (F := Ideal) x0 x1 x3 x4 x5 x6 x7 x8 x9 x10 x11 x12
    = Chain.agg (Chain.src x1) (Chain.dst x1) (val_main_v50 (F := Ideal) x0 x1 x3 x4 x5 x6 x7 x8 x9 x10 x11 x12) := rfl

theorem readout_unfold : val_main_v87 (F := Ideal) x0 x1 x2 x3 x4 x5 x6 x7 x8 x9 x10 x11 x12 x13 x14 x15 x16 x17 x18
    = Chain.readout x2 (val_main_v71 (F := Ideal) x0 x1 x3 x4 x5 x6 x7 x8 x9 x10 x11 x12 x13 x14 x15 x16) x17 x18 := rfl

/-- A message-passing layer of the reference, for any features h and aggregate a. -/
theorem gin_eq (h : (⟨S100000x64, .f32⟩ : BufTy).Contents (Elt Ideal)) (a : (⟨S100000x64, .f32⟩ : BufTy).Contents (Elt Ideal)) (Wa : (⟨S64x64, .f32⟩ : BufTy).Contents (Elt Ideal)) (ba : (⟨S64, .f32⟩ : BufTy).Contents (Elt Ideal))
    (Wb : (⟨S64x64, .f32⟩ : BufTy).Contents (Elt Ideal)) (bb : (⟨S64, .f32⟩ : BufTy).Contents (Elt Ideal)) :
    val_main_v8 (F := Ideal) (val_main_v8 (F := Ideal) (addf (h : FVec Ideal S100000x64 .f32) (a : FVec Ideal S100000x64 .f32) : FVec Ideal S100000x64 .f32) Wa ba) Wb bb
      = ginLayer h a Wa (fun q => ba (ix1 q)) Wb (fun q => bb (ix1 q)) := by
  rw [dense_eq, dense_eq]
  rfl

/-- THE REFERENCE'S RESULT is the network of its arguments. -/
theorem result_eq : val_main_v87 (F := Ideal) x0 x1 x2 x3 x4 x5 x6 x7 x8 x9 x10 x11 x12 x13 x14 x15 x16 x17 x18 = Cert.Network.forward x0 x1 x2 x3 x4 x5 x6 x7 x8 x9 x10 x11 x12 x13 x14 x15 x16 x17 x18 := by
  rw [readout_unfold, layer3_unfold, gin_eq, agg3_unfold, layer2_unfold, gin_eq, agg2_unfold, layer1_unfold, gin_eq,
    agg1_unfold, dense_eq]
  rfl

end Cert.ReferenceIdeal.RefValue

end
-- ==== Proof.lean ====
/-
  The certificate of the graph network: the kernel program against its reference.

  Both programs compute one function of the nineteen argument arrays over the extended reals: an embedding layer
  max(x W + b, 0), three message-passing layers — aggregate the features along the edges, add, two dense layers —
  and a per-graph mean followed by a linear layer. The kernel program runs the dense layers in four kernel regions,
  5000 rows at a time, narrowing the operands of each product to a shorter float format, which is the identity on
  the extended reals; the reference runs them as whole-array host operations. The aggregation and the read-out are
  the same host operations in both programs. The kernel program's frames are the generated ones; the reference's
  frame is its generated run; the ideal pass rewrote nothing, so the idealization claim is trivial.
-/
import proofs.«118939_j59055800320835_1_alg».proof.Defs
import proofs.«118939_j59055800320835_1_alg».proof.Proof.Gen.Kernel
import proofs.«118939_j59055800320835_1_alg».proof.Proof.Gen.Kernel.Skeleton
import proofs.«118939_j59055800320835_1_alg».proof.Proof.Gen.Kernel.Launch
import proofs.«118939_j59055800320835_1_alg».proof.Proof.Gen.Kernel.Points
import proofs.«118939_j59055800320835_1_alg».proof.Proof.Gen.Kernel.Frame
import proofs.«118939_j59055800320835_1_alg».proof.Proof.Gen.KernelIdeal
import proofs.«118939_j59055800320835_1_alg».proof.Proof.Gen.KernelIdeal.Skeleton
import proofs.«118939_j59055800320835_1_alg».proof.Proof.Gen.KernelIdeal.Launch
import proofs.«118939_j59055800320835_1_alg».proof.Proof.Gen.KernelIdeal.Points
import proofs.«118939_j59055800320835_1_alg».proof.Proof.Gen.KernelIdeal.Frame
import proofs.«118939_j59055800320835_1_alg».proof.Proof.Gen.ReferenceIdeal
import proofs.«118939_j59055800320835_1_alg».proof.Proof.Gen.ReferenceIdeal.Run
import proofs.«118939_j59055800320835_1_alg».proof.Proof.Gen.ReferenceIdeal.Read
import proofs.«118939_j59055800320835_1_alg».proof.Proof.Gen.Pre_finite_inputs
import proofs.«118939_j59055800320835_1_alg».proof.Proof.KernelRun
import proofs.«118939_j59055800320835_1_alg».proof.Proof.KernelValue
import proofs.«118939_j59055800320835_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The network of equal arguments is equal. -/
theorem forward_congr {x0 y0 : (⟨Cert.ReferenceIdeal.S100000x64, .f32⟩ : BufTy).Contents (Elt Ideal)} {x1 y1 : (⟨Cert.ReferenceIdeal.S2x1250000, .i32⟩ : BufTy).Contents (Elt Ideal)} {x2 y2 : (⟨Cert.ReferenceIdeal.S100000, .i32⟩ : BufTy).Contents (Elt Ideal)} {x3 y3 : (⟨Cert.ReferenceIdeal.S64x64, .f32⟩ : BufTy).Contents (Elt Ideal)} {x4 y4 : (⟨Cert.ReferenceIdeal.S64, .f32⟩ : BufTy).Contents (Elt Ideal)} {x5 y5 : (⟨Cert.ReferenceIdeal.S64x64, .f32⟩ : BufTy).Contents (Elt Ideal)} {x6 y6 : (⟨Cert.ReferenceIdeal.S64, .f32⟩ : BufTy).Contents (Elt Ideal)} {x7 y7 : (⟨Cert.ReferenceIdeal.S64x64, .f32⟩ : BufTy).Contents (Elt Ideal)} {x8 y8 : (⟨Cert.ReferenceIdeal.S64, .f32⟩ : BufTy).Contents (Elt Ideal)} {x9 y9 : (⟨Cert.ReferenceIdeal.S64x64, .f32⟩ : BufTy).Contents (Elt Ideal)} {x10 y10 : (⟨Cert.ReferenceIdeal.S64, .f32⟩ : BufTy).Contents (Elt Ideal)} {x11 y11 : (⟨Cert.ReferenceIdeal.S64x64, .f32⟩ : BufTy).Contents (Elt Ideal)} {x12 y12 : (⟨Cert.ReferenceIdeal.S64, .f32⟩ : BufTy).Contents (Elt Ideal)} {x13 y13 : (⟨Cert.ReferenceIdeal.S64x64, .f32⟩ : BufTy).Contents (Elt Ideal)} {x14 y14 : (⟨Cert.ReferenceIdeal.S64, .f32⟩ : BufTy).Contents (Elt Ideal)} {x15 y15 : (⟨Cert.ReferenceIdeal.S64x64, .f32⟩ : BufTy).Contents (Elt Ideal)} {x16 y16 : (⟨Cert.ReferenceIdeal.S64, .f32⟩ : BufTy).Contents (Elt Ideal)} {x17 y17 : (⟨Cert.ReferenceIdeal.S64x16, .f32⟩ : BufTy).Contents (Elt Ideal)} {x18 y18 : (⟨Cert.ReferenceIdeal.S16, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) :
    Cert.Network.forward x0 x1 x2 x3 x4 x5 x6 x7 x8 x9 x10 x11 x12 x13 x14 x15 x16 x17 x18 = Cert.Network.forward y0 y1 y2 y3 y4 y5 y6 y7 y8 y9 y10 y11 y12 y13 y14 y15 y16 y17 y18 := by
  subst e0 e1 e2 e3 e4 e5 e6 e7 e8 e9 e10 e11 e12 e13 e14 e15 e16 e17 e18
  rfl

/-- Both programs end with the network of the arguments in their result buffer, and the arguments agree. -/
theorem algebraic : Cert.algebraic_KernelIdeal_ReferenceIdeal := by
  intro m ρ m' ρ' _ hagree
  refine ⟨fun c => Cert.Network.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v60 (by decide))).trans (Cert.KernelIdeal.KValue.result_eq m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c),
      (h c _ (Cert.KernelIdeal.Gen.mem_uc Cert.KernelIdeal.main_arg12 (by decide))).trans (Cert.KernelIdeal.Gen.W9_main_arg12 m ρ c),
      (h c _ (Cert.KernelIdeal.Gen.mem_uc Cert.KernelIdeal.main_arg13 (by decide))).trans (Cert.KernelIdeal.Gen.W9_main_arg13 m ρ c),
      (h c _ (Cert.KernelIdeal.Gen.mem_uc Cert.KernelIdeal.main_arg14 (by decide))).trans (Cert.KernelIdeal.Gen.W9_main_arg14 m ρ c),
      (h c _ (Cert.KernelIdeal.Gen.mem_uc Cert.KernelIdeal.main_arg15 (by decide))).trans (Cert.KernelIdeal.Gen.W9_main_arg15 m ρ c),
      (h c _ (Cert.KernelIdeal.Gen.mem_uc Cert.KernelIdeal.main_arg16 (by decide))).trans (Cert.KernelIdeal.Gen.W9_main_arg16 m ρ c),
      (h c _ (Cert.KernelIdeal.Gen.mem_uc Cert.KernelIdeal.main_arg17 (by decide))).trans (Cert.KernelIdeal.Gen.W9_main_arg17 m ρ c),
      (h c _ (Cert.KernelIdeal.Gen.mem_uc Cert.KernelIdeal.main_arg18 (by decide))).trans (Cert.KernelIdeal.Gen.W9_main_arg18 m ρ c)⟩
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v87_eq m' c).trans ?_)
    refine (Cert.ReferenceIdeal.RefValue.result_eq _ _ _ _ _ _ _ _ _ _ _ _ _ _ _ _ _ _ _).trans ?_
    obtain ⟨e0, e1, e2, e3, e4, e5, e6, e7, e8, e9, e10, e11, e12, e13, e14, e15, e16, e17, e18⟩ := hagree c
    exact forward_congr e0 e1 e2 e3 e4 e5 e6 e7 e8 e9 e10 e11 e12 e13 e14 e15 e16 e17 e18

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
